-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x128x128 : Shape := ⟨3, ![4, 128, 128]⟩
abbrev S4x128 : Shape := ⟨2, ![4, 128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S2x600000 : Shape := ⟨2, ![2, 600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256 .f32) (main_arg5 : FVec F S256x1 .f32) (main_arg6 : FVec F S1 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : FVec F S4x128x128 .f32) (main_arg2 : FVec F S4x128 .f32) (main_arg3 : FVec F S128x256 .f32) (main_arg4 : FVec F S256 .f32) (main_arg5 : FVec F S256x1 .f32) (main_arg6 : FVec F S1 .f32) (main_arg7 : IVec S2x600000 32) (main_arg8 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S100000x128 : Shape := ⟨2, ![100000, 128]⟩
abbrev S4x128x128 : Shape := ⟨3, ![4, 128, 128]⟩
abbrev S4x128 : Shape := ⟨2, ![4, 128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S2x600000 : Shape := ⟨2, ![2, 600000]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S1x128x128 : Shape := ⟨3, ![1, 128, 128]⟩
abbrev S128x128 : Shape := ⟨2, ![128, 128]⟩
abbrev S5000x128 : Shape := ⟨2, ![5000, 128]⟩
abbrev S700000x128 : Shape := ⟨2, ![700000, 128]⟩
abbrev S1x128 : Shape := ⟨2, ![1, 128]⟩
abbrev S128 : Shape := ⟨1, ![128]⟩
abbrev S2000x128 : Shape := ⟨2, ![2000, 128]⟩
abbrev S100000x1 : Shape := ⟨2, ![100000, 1]⟩
abbrev S2000 : Shape := ⟨1, ![2000]⟩
abbrev S2000x1 : Shape := ⟨2, ![2000, 1]⟩
abbrev S1x256 : Shape := ⟨2, ![1, 256]⟩
abbrev S1x1 : Shape := ⟨2, ![1, 1]⟩
abbrev S2000x256 : Shape := ⟨2, ![2000, 256]⟩

abbrev nBuf : Space → Nat
  | .hbm => 152
  | .vmem => 47
  | .smem => 0
  | _ => 0

abbrev hbmTy0_0 (i : Nat) : BufTy := match i % 128 with
  | 0 => ⟨S100000x128, .f32⟩
  | 1 => ⟨S4x128x128, .f32⟩
  | 2 => ⟨S4x128, .f32⟩
  | 3 => ⟨S128x256, .f32⟩
  | 4 => ⟨S256, .f32⟩
  | 5 => ⟨S256x1, .f32⟩
  | 6 => ⟨S1, .f32⟩
  | 7 => ⟨S2x600000, .i32⟩
  | 8 => ⟨S100000, .i32⟩
  | 9 => ⟨S100000, .i32⟩
  | 10 => ⟨S1x600000, .i32⟩
  | 11 => ⟨S600000, .i32⟩
  | 12 => ⟨S700000, .i32⟩
  | 13 => ⟨S1x600000, .i32⟩
  | 14 => ⟨S600000, .i32⟩
  | 15 => ⟨S700000, .i32⟩
  | 16 => ⟨S_, .f32⟩
  | 17 => ⟨S700000, .f32⟩
  | 18 => ⟨S_, .f32⟩
  | 19 => ⟨S100000, .f32⟩
  | 20 => ⟨S700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S700000, .i32⟩
  | 32 => ⟨S700000, .i1⟩
  | 33 => ⟨S_, .i32⟩
  | 34 => ⟨S700000, .i32⟩
  | 35 => ⟨S700000, .i32⟩
  | 36 => ⟨S700000, .i32⟩
  | 37 => ⟨S700000x1, .i32⟩
  | 38 => ⟨S700000, .f32⟩
  | 39 => ⟨S_, .i32⟩
  | 40 => ⟨S700000, .i32⟩
  | 41 => ⟨S700000, .i1⟩
  | 42 => ⟨S_, .i32⟩
  | 43 => ⟨S700000, .i32⟩
  | 44 => ⟨S700000, .i32⟩
  | 45 => ⟨S700000, .i32⟩
  | 46 => ⟨S700000x1, .i32⟩
  | 47 => ⟨S700000, .f32⟩
  | 48 => ⟨S700000, .f32⟩
  | 49 => ⟨S700000x1, .f32⟩
  | 50 => ⟨S1x128x128, .f32⟩
  | 51 => ⟨S128x128, .f32⟩
  | 52 => ⟨S100000x128, .f32⟩
  | 53 => ⟨S_, .i32⟩
  | 54 => ⟨S700000, .i32⟩
  | 55 => ⟨S700000, .i1⟩
  | 56 => ⟨S_, .i32⟩
  | 57 => ⟨S700000, .i32⟩
  | 58 => ⟨S700000, .i32⟩
  | 59 => ⟨S700000, .i32⟩
  | 60 => ⟨S700000x1, .i32⟩
  | 61 => ⟨S700000x128, .f32⟩
  | 62 => ⟨S700000x128, .f32⟩
  | 63 => ⟨S700000x128, .f32⟩
  | 64 => ⟨S_, .f32⟩
  | 65 => ⟨S100000x128, .f32⟩
  | 66 => ⟨S700000x1, .i32⟩
  | 67 => ⟨S100000x128, .f32⟩
  | 68 => ⟨S1x128, .f32⟩
  | 69 => ⟨S128, .f32⟩
  | 70 => ⟨S1x128, .f32⟩
  | 71 => ⟨S100000x128, .f32⟩
  | 72 => ⟨S1x128x128, .f32⟩
  | 73 => ⟨S128x128, .f32⟩
  | 74 => ⟨S100000x128, .f32⟩
  | 75 => ⟨S_, .i32⟩
  | 76 => ⟨S700000, .i32⟩
  | 77 => ⟨S700000, .i1⟩
  | 78 => ⟨S_, .i32⟩
  | 79 => ⟨S700000, .i32⟩
  | 80 => ⟨S700000, .i32⟩
  | 81 => ⟨S700000, .i32⟩
  | 82 => ⟨S700000x1, .i32⟩
  | 83 => ⟨S700000x128, .f32⟩
  | 84 => ⟨S700000x128, .f32⟩
  | 85 => ⟨S700000x128, .f32⟩
  | 86 => ⟨S_, .f32⟩
  | 87 => ⟨S100000x128, .f32⟩
  | 88 => ⟨S700000x1, .i32⟩
  | 89 => ⟨S100000x128, .f32⟩
  | 90 => ⟨S1x128, .f32⟩
  | 91 => ⟨S128, .f32⟩
  | 92 => ⟨S1x128, .f32⟩
  | 93 => ⟨S100000x128, .f32⟩
  | 94 => ⟨S1x128x128, .f32⟩
  | 95 => ⟨S128x128, .f32⟩
  | 96 => ⟨S100000x128, .f32⟩
  | 97 => ⟨S_, .i32⟩
  | 98 => ⟨S700000, .i32⟩
  | 99 => ⟨S700000, .i1⟩
  | 100 => ⟨S_, .i32⟩
  | 101 => ⟨S700000, .i32⟩
  | 102 => ⟨S700000, .i32⟩
  | 103 => ⟨S700000, .i32⟩
  | 104 => ⟨S700000x1, .i32⟩
  | 105 => ⟨S700000x128, .f32⟩
  | 106 => ⟨S700000x128, .f32⟩
  | 107 => ⟨S700000x128, .f32⟩
  | 108 => ⟨S_, .f32⟩
  | 109 => ⟨S100000x128, .f32⟩
  | 110 => ⟨S700000x1, .i32⟩
  | 111 => ⟨S100000x128, .f32⟩
  | 112 => ⟨S1x128, .f32⟩
  | 113 => ⟨S128, .f32⟩
  | 114 => ⟨S1x128, .f32⟩
  | 115 => ⟨S100000x128, .f32⟩
  | 116 => ⟨S1x128x128, .f32⟩
  | 117 => ⟨S128x128, .f32⟩
  | 118 => ⟨S100000x128, .f32⟩
  | 119 => ⟨S_, .i32⟩
  | 120 => ⟨S700000, .i32⟩
  | 121 => ⟨S700000, .i1⟩
  | 122 => ⟨S_, .i32⟩
  | 123 => ⟨S700000, .i32⟩
  | 124 => ⟨S700000, .i32⟩
  | 125 => ⟨S700000, .i32⟩
  | 126 => ⟨S700000x1, .i32⟩
  | 127 => ⟨S700000x128, .f32⟩
  | _ => ⟨S100000x128, .f32⟩

abbrev hbmTy0_1 (i : Nat) : BufTy := match i % 128 with
  | 0 => ⟨S700000x128, .f32⟩
  | 1 => ⟨S700000x128, .f32⟩
  | 2 => ⟨S_, .f32⟩
  | 3 => ⟨S100000x128, .f32⟩
  | 4 => ⟨S700000x1, .i32⟩
  | 5 => ⟨S100000x128, .f32⟩
  | 6 => ⟨S1x128, .f32⟩
  | 7 => ⟨S128, .f32⟩
  | 8 => ⟨S1x128, .f32⟩
  | 9 => ⟨S100000x128, .f32⟩
  | 10 => ⟨S_, .f32⟩
  | 11 => ⟨S2000x128, .f32⟩
  | 12 => ⟨S100000x1, .i32⟩
  | 13 => ⟨S2000x128, .f32⟩
  | 14 => ⟨S_, .f32⟩
  | 15 => ⟨S100000, .f32⟩
  | 16 => ⟨S_, .f32⟩
  | 17 => ⟨S2000, .f32⟩
  | 18 => ⟨S100000x1, .i32⟩
  | 19 => ⟨S2000, .f32⟩
  | 20 => ⟨S2000x1, .f32⟩
  | 21 => ⟨S1x256, .f32⟩
  | 22 => ⟨S1x1, .f32⟩
  | 23 => ⟨S2000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S2000x128, .f32⟩
  | .local _ .vmem, ⟨41, _⟩ => ⟨S2000x1, .f32⟩
  | .local _ .vmem, ⟨42, _⟩ => ⟨S128x256, .f32⟩
  | .local _ .vmem, ⟨43, _⟩ => ⟨S1x256, .f32⟩
  | .local _ .vmem, ⟨44, _⟩ => ⟨S256x1, .f32⟩
  | .local _ .vmem, ⟨45, _⟩ => ⟨S1x1, .f32⟩
  | .local _ .vmem, ⟨46, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_12 : Ref sig .tc := ⟨.hbm, 97, rfl⟩
abbrev main_v72 : Ref sig .tc := ⟨.hbm, 98, rfl⟩
abbrev main_v73 : Ref sig .tc := ⟨.hbm, 99, rfl⟩
abbrev main_c_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_c_15 : Ref sig .tc := ⟨.hbm, 119, rfl⟩
abbrev main_v91 : Ref sig .tc := ⟨.hbm, 120, rfl⟩
abbrev main_v92 : Ref sig .tc := ⟨.hbm, 121, rfl⟩
abbrev main_c_16 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_17 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_18 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_19 : Ref sig .tc := ⟨.hbm, 142, rfl⟩
abbrev main_v110 : Ref sig .tc := ⟨.hbm, 143, rfl⟩
abbrev main_cst_20 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg1_0 : Ref sig .tc := ⟨.vmem, 41, rfl⟩
abbrev cc8_stg2_0 : Ref sig .tc := ⟨.vmem, 42, rfl⟩
abbrev cc8_stg3_0 : Ref sig .tc := ⟨.vmem, 43, rfl⟩
abbrev cc8_stg4_0 : Ref sig .tc := ⟨.vmem, 44, rfl⟩
abbrev cc8_stg5_0 : Ref sig .tc := ⟨.vmem, 45, rfl⟩
abbrev cc8_stg6_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem1_0 : DmaSem sig := 41
abbrev cc8_sem2_0 : DmaSem sig := 42
abbrev cc8_sem3_0 : DmaSem sig := 43
abbrev cc8_sem4_0 : DmaSem sig := 44
abbrev cc8_sem5_0 : DmaSem sig := 45
abbrev cc8_sem6_0 : DmaSem sig := 46

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S2000x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S2000x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S256x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S2000x1 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S2000x128 : S_.BroadcastsInDim S2000x128 (![] : Fin 0 → Fin S2000x128.rank)
  bcast_S100000_S100000x1_0 : S100000.BroadcastsInDim S100000x1 (![0] : Fin 1 → Fin S100000x1.rank)
  bcast_S_S2000 : S_.BroadcastsInDim S2000 (![] : Fin 0 → Fin S2000.rank)
  shapeCasts_S2000_S2000x1 : S2000.ShapeCasts S2000x1
  shapeCasts_S256_S1x256 : S256.ShapeCasts S1x256
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  scatter_S2000x128_S100000x1_S100000x128_1_0_0_1_wf : ScatterDims.WF S2000x128 S100000x1 S100000x128 [1] [0] [0] 1
  scatter_S2000_S100000x1_S100000_n_0_0_1_wf : ScatterDims.WF S2000 S100000x1 S100000 [] [0] [0] 1
  dot_S2000x128_S128x256_S2000x256_1_0_0_1_n_n_wf : DotDims.WF S2000x128 S128x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S2000x128.size a
  hwx8_0 : ∀ i : grid8.Coords, EltTy.bits .f32 = 32 ∨ (Rect.block (s := S2000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S2000x1.size a
  hwx8_1 : ∀ i : grid8.Coords, EltTy.bits .f32 = 32 ∨ (Rect.block (s := S2000x1) S2000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x256.size a ≤ S128x256.size a
  hwx8_2 : ∀ i : grid8.Coords, EltTy.bits .f32 = 32 ∨ (Rect.block (s := S128x256) S128x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S256x1.size a ≤ S256x1.size a
  hwx8_4 : ∀ i : grid8.Coords, EltTy.bits .f32 = 32 ∨ (Rect.block (s := S256x1) S256x1.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x1.size a ≤ S1x1.size a
  hwx8_5 : ∀ i : grid8.Coords, EltTy.bits .f32 = 32 ∨ (Rect.block (s := S1x1) S1x1.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S2000x1.size a ≤ S2000x1.size a
  hwx8_6 : ∀ i : grid8.Coords, EltTy.bits .f32 = 32 ∨ (Rect.block (s := S2000x1) S2000x1.size (cc8_transform_6 i) (hinb8_6 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v87) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v89) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v102) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v105) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v106) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v109) S2000x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v114) S2000x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg3) S128x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v115) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg5) S256x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v116) S1x1.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v117) S2000x1.size cc8_transform_6 reads8_6 true true 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S100000x128 : Shape := ⟨2, ![100000, 128]⟩
abbrev S4x128x128 : Shape := ⟨3, ![4, 128, 128]⟩
abbrev S4x128 : Shape := ⟨2, ![4, 128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S2x600000 : Shape := ⟨2, ![2, 600000]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S1x128x128 : Shape := ⟨3, ![1, 128, 128]⟩
abbrev S128x128 : Shape := ⟨2, ![128, 128]⟩
abbrev S700000x128 : Shape := ⟨2, ![700000, 128]⟩
abbrev S1x128 : Shape := ⟨2, ![1, 128]⟩
abbrev S128 : Shape := ⟨1, ![128]⟩
abbrev S2000x128 : Shape := ⟨2, ![2000, 128]⟩
abbrev S100000x1 : Shape := ⟨2, ![100000, 1]⟩
abbrev S2000 : Shape := ⟨1, ![2000]⟩
abbrev S2000x1 : Shape := ⟨2, ![2000, 1]⟩
abbrev S2000x256 : Shape := ⟨2, ![2000, 256]⟩
abbrev S1x256 : Shape := ⟨2, ![1, 256]⟩
abbrev S1x1 : Shape := ⟨2, ![1, 1]⟩

abbrev nBuf : Space → Nat
  | .hbm => 181
  | .vmem => 0
  | .smem => 0
  | _ => 0

abbrev hbmTy0_0 (i : Nat) : BufTy := match i % 128 with
  | 0 => ⟨S100000x128, .f32⟩
  | 1 => ⟨S4x128x128, .f32⟩
  | 2 => ⟨S4x128, .f32⟩
  | 3 => ⟨S128x256, .f32⟩
  | 4 => ⟨S256, .f32⟩
  | 5 => ⟨S256x1, .f32⟩
  | 6 => ⟨S1, .f32⟩
  | 7 => ⟨S2x600000, .i32⟩
  | 8 => ⟨S100000, .i32⟩
  | 9 => ⟨S100000, .i32⟩
  | 10 => ⟨S1x600000, .i32⟩
  | 11 => ⟨S600000, .i32⟩
  | 12 => ⟨S700000, .i32⟩
  | 13 => ⟨S1x600000, .i32⟩
  | 14 => ⟨S600000, .i32⟩
  | 15 => ⟨S700000, .i32⟩
  | 16 => ⟨S_, .f32⟩
  | 17 => ⟨S700000, .f32⟩
  | 18 => ⟨S_, .f32⟩
  | 19 => ⟨S100000, .f32⟩
  | 20 => ⟨S700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S700000, .i32⟩
  | 32 => ⟨S700000, .i1⟩
  | 33 => ⟨S_, .i32⟩
  | 34 => ⟨S700000, .i32⟩
  | 35 => ⟨S700000, .i32⟩
  | 36 => ⟨S700000, .i32⟩
  | 37 => ⟨S700000x1, .i32⟩
  | 38 => ⟨S700000, .f32⟩
  | 39 => ⟨S_, .i32⟩
  | 40 => ⟨S700000, .i32⟩
  | 41 => ⟨S700000, .i1⟩
  | 42 => ⟨S_, .i32⟩
  | 43 => ⟨S700000, .i32⟩
  | 44 => ⟨S700000, .i32⟩
  | 45 => ⟨S700000, .i32⟩
  | 46 => ⟨S700000x1, .i32⟩
  | 47 => ⟨S700000, .f32⟩
  | 48 => ⟨S700000, .f32⟩
  | 49 => ⟨S700000x1, .f32⟩
  | 50 => ⟨S1x128x128, .f32⟩
  | 51 => ⟨S128x128, .f32⟩
  | 52 => ⟨S100000x128, .f32⟩
  | 53 => ⟨S_, .i32⟩
  | 54 => ⟨S700000, .i32⟩
  | 55 => ⟨S700000, .i1⟩
  | 56 => ⟨S_, .i32⟩
  | 57 => ⟨S700000, .i32⟩
  | 58 => ⟨S700000, .i32⟩
  | 59 => ⟨S700000, .i32⟩
  | 60 => ⟨S700000x1, .i32⟩
  | 61 => ⟨S700000x128, .f32⟩
  | 62 => ⟨S700000x128, .f32⟩
  | 63 => ⟨S700000x128, .f32⟩
  | 64 => ⟨S_, .f32⟩
  | 65 => ⟨S100000x128, .f32⟩
  | 66 => ⟨S700000x1, .i32⟩
  | 67 => ⟨S100000x128, .f32⟩
  | 68 => ⟨S1x128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S1x128x128, .f32⟩
  | 77 => ⟨S128x128, .f32⟩
  | 78 => ⟨S100000x128, .f32⟩
  | 79 => ⟨S_, .i32⟩
  | 80 => ⟨S700000, .i32⟩
  | 81 => ⟨S700000, .i1⟩
  | 82 => ⟨S_, .i32⟩
  | 83 => ⟨S700000, .i32⟩
  | 84 => ⟨S700000, .i32⟩
  | 85 => ⟨S700000, .i32⟩
  | 86 => ⟨S700000x1, .i32⟩
  | 87 => ⟨S700000x128, .f32⟩
  | 88 => ⟨S700000x128, .f32⟩
  | 89 => ⟨S700000x128, .f32⟩
  | 90 => ⟨S_, .f32⟩
  | 91 => ⟨S100000x128, .f32⟩
  | 92 => ⟨S700000x1, .i32⟩
  | 93 => ⟨S100000x128, .f32⟩
  | 94 => ⟨S1x128, .f32⟩
  | 95 => ⟨S128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S1x128x128, .f32⟩
  | 103 => ⟨S128x128, .f32⟩
  | 104 => ⟨S100000x128, .f32⟩
  | 105 => ⟨S_, .i32⟩
  | 106 => ⟨S700000, .i32⟩
  | 107 => ⟨S700000, .i1⟩
  | 108 => ⟨S_, .i32⟩
  | 109 => ⟨S700000, .i32⟩
  | 110 => ⟨S700000, .i32⟩
  | 111 => ⟨S700000, .i32⟩
  | 112 => ⟨S700000x1, .i32⟩
  | 113 => ⟨S700000x128, .f32⟩
  | 114 => ⟨S700000x128, .f32⟩
  | 115 => ⟨S700000x128, .f32⟩
  | 116 => ⟨S_, .f32⟩
  | 117 => ⟨S100000x128, .f32⟩
  | 118 => ⟨S700000x1, .i32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S1x128x128, .f32⟩
  | 1 => ⟨S128x128, .f32⟩
  | 2 => ⟨S100000x128, .f32⟩
  | 3 => ⟨S_, .i32⟩
  | 4 => ⟨S700000, .i32⟩
  | 5 => ⟨S700000, .i1⟩
  | 6 => ⟨S_, .i32⟩
  | 7 => ⟨S700000, .i32⟩
  | 8 => ⟨S700000, .i32⟩
  | 9 => ⟨S700000, .i32⟩
  | 10 => ⟨S700000x1, .i32⟩
  | 11 => ⟨S700000x128, .f32⟩
  | 12 => ⟨S700000x128, .f32⟩
  | 13 => ⟨S700000x128, .f32⟩
  | 14 => ⟨S_, .f32⟩
  | 15 => ⟨S100000x128, .f32⟩
  | 16 => ⟨S700000x1, .i32⟩
  | 17 => ⟨S100000x128, .f32⟩
  | 18 => ⟨S1x128, .f32⟩
  | 19 => ⟨S128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S_, .f32⟩
  | 27 => ⟨S2000x128, .f32⟩
  | 28 => ⟨S100000x1, .i32⟩
  | 29 => ⟨S2000x128, .f32⟩
  | 30 => ⟨S_, .f32⟩
  | 31 => ⟨S100000, .f32⟩
  | 32 => ⟨S_, .f32⟩
  | 33 => ⟨S2000, .f32⟩
  | 34 => ⟨S100000x1, .i32⟩
  | 35 => ⟨S2000, .f32⟩
  | 36 => ⟨S_, .f32⟩
  | 37 => ⟨S2000, .f32⟩
  | 38 => ⟨S2000, .f32⟩
  | 39 => ⟨S2000x1, .f32⟩
  | 40 => ⟨S2000x128, .f32⟩
  | 41 => ⟨S2000x128, .f32⟩
  | 42 => ⟨S2000x256, .f32⟩
  | 43 => ⟨S1x256, .f32⟩
  | 44 => ⟨S2000x256, .f32⟩
  | 45 => ⟨S2000x256, .f32⟩
  | 46 => ⟨S_, .f32⟩
  | 47 => ⟨S2000x256, .f32⟩
  | 48 => ⟨S2000x256, .f32⟩
  | 49 => ⟨S2000x1, .f32⟩
  | 50 => ⟨S1x1, .f32⟩
  | 51 => ⟨S2000x1, .f32⟩
  | 52 => ⟨S2000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_9 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call2_cst : Ref sig .tc := ⟨.hbm, 99, rfl⟩
abbrev main_call2_v0 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_12 : Ref sig .tc := ⟨.hbm, 105, rfl⟩
abbrev main_v76 : Ref sig .tc := ⟨.hbm, 106, rfl⟩
abbrev main_v77 : Ref sig .tc := ⟨.hbm, 107, rfl⟩
abbrev main_c_13 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_14 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call3_cst : Ref sig .tc := ⟨.hbm, 125, rfl⟩
abbrev main_call3_v0 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_15 : Ref sig .tc := ⟨.hbm, 131, rfl⟩
abbrev main_v97 : Ref sig .tc := ⟨.hbm, 132, rfl⟩
abbrev main_v98 : Ref sig .tc := ⟨.hbm, 133, rfl⟩
abbrev main_c_16 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_17 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_call4_cst : Ref sig .tc := ⟨.hbm, 151, rfl⟩
abbrev main_call4_v0 : Ref sig .tc := ⟨.hbm, 152, rfl⟩
abbrev main_v114 : Ref sig .tc := ⟨.hbm, 153, rfl⟩
abbrev main_cst_18 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_19 : Ref sig .tc := ⟨.hbm, 158, rfl⟩
abbrev main_v118 : Ref sig .tc := ⟨.hbm, 159, rfl⟩
abbrev main_cst_20 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_21 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_call5_cst : Ref sig .tc := ⟨.hbm, 174, rfl⟩
abbrev main_call5_v0 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  slices_S4x128x128_S1x128x128_0_0_0 : S4x128x128.Slices ![0, 0, 0] S1x128x128
  shapeCasts_S1x128x128_S128x128 : S1x128x128.ShapeCasts S128x128
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S2000x128 : S_.BroadcastsInDim S2000x128 (![] : Fin 0 → Fin S2000x128.rank)
  bcast_S100000_S100000x1_0 : S100000.BroadcastsInDim S100000x1 (![0] : Fin 1 → Fin S100000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  bcast_S256_S1x256_1 : S256.BroadcastsInDim S1x256 (![1] : Fin 1 → Fin S1x256.rank)
  bcast_S1x256_S2000x256_0_1 : S1x256.BroadcastsInDim S2000x256 (![0, 1] : Fin 2 → Fin S2000x256.rank)
  bcast_S_S2000x256 : S_.BroadcastsInDim S2000x256 (![] : Fin 0 → Fin S2000x256.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  scatter_S2000x128_S100000x1_S100000x128_1_0_0_1_wf : ScatterDims.WF S2000x128 S100000x1 S100000x128 [1] [0] [0] 1
  scatter_S2000_S100000x1_S100000_n_0_0_1_wf : ScatterDims.WF S2000 S100000x1 S100000 [] [0] [0] 1
  dot_S2000x128_S128x256_S2000x256_1_0_0_1_n_n_wf : DotDims.WF S2000x128 S128x256 S2000x256 [1] [0] [0] [1] [] []
  dot_S2000x256_S256x1_S2000x1_1_0_0_1_n_n_wf : DotDims.WF S2000x256 S256x1 S2000x1 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

class Facts : Prop extends Facts₀ where

variable [Facts]
-- ==== Proof.KernelRun.lean ====
/-
  The idealized kernel's run with its result named.

  @main is nine kernel launches among stretches of host operations. Every weakly fair execution from a memory with
  zero counters terminates without a fault, and it ends with every unscoped buffer of a core at the contents of the
  last segment boundary: the launch memory folded through each host stretch (the operations' values) and each
  launch (its output array at what the grid's write-backs leave, every other buffer as entered). Read at the result
  buffer this names the program's result; read at an argument buffer it gives back the launch contents, since no
  host operation and no launch writes an argument.
-/
import proofs.«143770_j20968030339470_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and the argument arrays end as launched. -/
theorem run_named : θ_run defs (onTc (τ := τ) (main (F := F))) ⟨m, fun _ => 0, ρ⟩ (fun r => ∀ c : Dev nD,
      r.2.mem ((c.tc : Thread nD τ).loc main_v117) = W20 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v117 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c)⟩)

end Cert.KernelIdeal.KRun

end
-- ==== Proof.LibTypedRef.lean ====
/-
  Typed buffer references: the transport between a value's type and its buffer's declared type.

  An operation of an outlined function reads and writes its buffers through a typed reference, which carries a proof
  that the buffer's declared type is the value's type and moves contents along it. The transport there and back is
  the identity, and a transported value equals any value it is heterogeneously equal to: both by substituting the
  type equation, with nothing computed.
-/
import Idealize.ShloMosaic.Lib.StableHlo

noncomputable section

namespace Idealize.ShloMosaic.StableHlo.TRef

variable {sig : RefSig} {Val : EltTy → Type} {T : BufTy}

/-- Contents moved to the buffer's declared type and back are the contents. -/
theorem ofBuf_toBuf (x : TRef sig T) (w : T.Contents Val) : x.ofBuf (x.toBuf w) = w := by
  obtain ⟨r, rfl, _, _⟩ := x
  rfl

/-- Buffer contents read at the value's type are any value they are heterogeneously equal to. -/
theorem ofBuf_eq_of_heq (x : TRef sig T) (v : x.ref.ty.Contents Val) (w : T.Contents Val) (h : HEq v w) :
    x.ofBuf v = w := by
  obtain ⟨r, rfl, _, _⟩ := x
  exact eq_of_heq h

/-- A value written at the buffer's declared type is any buffer contents it is heterogeneously equal to. -/
theorem toBuf_eq_of_heq (x : TRef sig T) (w : T.Contents Val) (v : x.ref.ty.Contents Val) (h : HEq w v) :
    x.toBuf w = v := by
  obtain ⟨r, rfl, _, _⟩ := x
  exact eq_of_heq h

end Idealize.ShloMosaic.StableHlo.TRef

end
-- ==== Proof.Dense.lean ====
/-
  The dense steps of a graph convolution network, as whole-array functions on the extended reals.

  A layer multiplies the node features by a weight matrix, aggregates along the edges, adds a bias row to every node
  and clamps at zero. The head divides each graph's summed features by its node count (at least one), and applies
  two affine maps with a clamp at zero between them. Here are the three dense pieces, index by index: the matrix
  product `(X W)(r, q) = ∑ k, X(r, k) · W(k, q)`, the biased clamp `max (A(r, q) + b(0, q)) 0`, and the head. The
  zero and the one are kept as the float words the programs spell, the same on both sides, so they are never evaluated.
-/
import Idealize.ShloMosaic.PureOps.Ideal
import Idealize.ShloMosaic.Lib.ValueIdx

noncomputable section

namespace Cert.Dense

open Idealize.ShloMosaic Idealize.ShloMosaic.ValueIdx

/-- An `a × b` matrix of extended reals. -/
abbrev Mat (a b : Nat) : Type := (⟨2, ![a, b]⟩ : Shape).Idx → EReal

/-- The float zero, as the programs spell it. -/
abbrev zeroWord : EReal := Ideal.ofBits .f32 0x00000000#32
/-- The float one, as the programs spell it. -/
abbrev oneWord : EReal := Ideal.ofBits .f32 0x3F800000#32

/-- The matrix product: entry `(r, q)` is the sum over `k` of `X (r, k) * W (k, q)`. -/
def mm {M K N : Nat} (X : Mat M K) (W : Mat K N) : Mat M N :=
  fun i => ∑ k : Fin K, X (ix2 (n0 := M) (i 0) k) * W (ix2 (n1 := N) k (i 1))

theorem mm_apply {M K N : Nat} (X : Mat M K) (W : Mat K N) (r : Fin M) (q : Fin N) :
    mm X W (ix2 r q) = ∑ k : Fin K, X (ix2 r k) * W (ix2 k q) := rfl

/-- A bias row added to every row, then the clamp at zero. -/
def biasRelu {M N : Nat} (A : Mat M N) (b : Mat 1 N) : Mat M N :=
  fun i => max (A i + b (ix2 (n1 := N) (0 : Fin 1) (i 1))) zeroWord

theorem biasRelu_apply {M N : Nat} (A : Mat M N) (b : Mat 1 N) (r : Fin M) (q : Fin N) :
    biasRelu A b (ix2 r q) = max (A (ix2 r q) + b (ix2 0 q)) zeroWord := rfl

/-- A bias row added to every row. -/
def addRow {M N : Nat} (A : Mat M N) (b : Mat 1 N) : Mat M N :=
  fun i => A i + b (ix2 (n1 := N) (0 : Fin 1) (i 1))

theorem addRow_apply {M N : Nat} (A : Mat M N) (b : Mat 1 N) (r : Fin M) (q : Fin N) :
    addRow A b (ix2 r q) = A (ix2 r q) + b (ix2 0 q) := rfl

/-- Each row divided by its own count, the count raised to at least one. -/
def meanRows {M N : Nat} (S : Mat M N) (cnt : Mat M 1) : Mat M N :=
  fun i => Ideal.div (S i) (max (cnt (ix2 (n0 := M) (i 0) (0 : Fin 1))) oneWord)

theorem meanRows_apply {M N : Nat} (S : Mat M N) (cnt : Mat M 1) (r : Fin M) (q : Fin N) :
    meanRows S cnt (ix2 r q) = Ideal.div (S (ix2 r q)) (max (cnt (ix2 r 0)) oneWord) := rfl

/-- The head: the graphs' mean features through two affine maps, clamped at zero in between. -/
def head {G D H O : Nat} (S : Mat G D) (cnt : Mat G 1) (W1 : Mat D H) (b1 : Mat 1 H) (W2 : Mat H O) (b2 : Mat 1 O) :
    Mat G O :=
  addRow (mm (biasRelu (mm (meanRows S cnt) W1) b1) W2) b2

end Cert.Dense

end
-- ==== Proof.StagePre.lean ====
/-
  The host operations before the first region, read against the reference's own stages.

  Both programs start with the same operations on the edge list: the self loops appended to the sources and to the
  targets, the in-degree of every node by a scatter-add of ones, its reciprocal square root where the degree is
  positive, and the product of the two endpoints' values as the edge weight; and both slice the first layer's weight
  matrix out of the stacked weights. Stretch by stretch, each buffer the later stretches read holds the value the
  reference's corresponding stage has, as a function of the argument arrays.
-/
import proofs.«143770_j20968030339470_1_alg».proof.Proof.Gen.KernelIdeal.Frame
import proofs.«143770_j20968030339470_1_alg».proof.Proof.RefRead
import proofs.«143770_j20968030339470_1_alg».proof.Proof.LibTypedRef
import proofs.«143770_j20968030339470_1_alg».proof.Proof.Dense

set_option maxRecDepth 16384
set_option quotPrecheck false

noncomputable section

namespace Cert.KernelIdeal.StagePre

open Cert.KernelIdeal Cert.KernelIdeal.Gen Cert.ReferenceIdeal.ReadP Cert.Dense
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)

/-! ## After the first stretch -/

theorem w1_v3 : W1 m ρ c (Proc.devRef .tc main_v3) = val_main_v3 (F := Ideal) a7 := by
  show StableHlo.after hostOps0 (W0 m ρ c) (Proc.devRef .tc main_v3) = _
  after_results
  rfl

theorem w1_v6 : W1 m ρ c (Proc.devRef .tc main_v6) = val_main_v6 (F := Ideal) a7 := by
  show StableHlo.after hostOps0 (W0 m ρ c) (Proc.devRef .tc main_v6) = _
  after_results
  rfl

theorem w1_v12 : W1 m ρ c (Proc.devRef .tc main_v12) = val_main_v12 (F := Ideal) a7 := by
  show StableHlo.after hostOps0 (W0 m ρ c) (Proc.devRef .tc main_v12) = _
  after_results
  rfl

theorem w1_v13 : W1 m ρ c (Proc.devRef .tc main_v13) = val_main_v13 (F := Ideal) a7 := by
  show StableHlo.after hostOps0 (W0 m ρ c) (Proc.devRef .tc main_v13) = _
  after_results
  rfl

theorem w1_cst2 : W1 m ρ c (Proc.devRef .tc main_cst_2) = val_main_cst_2 (F := Ideal) := by
  show StableHlo.after hostOps0 (W0 m ρ c) (Proc.devRef .tc main_cst_2) = _
  after_results
  rfl

theorem w1_arg1 : W1 m ρ c (Proc.devRef .tc main_arg1) = a1 := by
  show StableHlo.after hostOps0 (W0 m ρ c) (Proc.devRef .tc main_arg1) = _
  after_results

/-! ## After the second stretch (the reciprocal square root kept where the degree is positive) -/

theorem w2_v14 : W2 m ρ c (Proc.devRef .tc main_v14) = val_main_v14 (F := Ideal) a7 := by
  have h12 := w1_v12 m ρ c
  have h13 := w1_v13 m ρ c
  have hc := w1_cst2 m ρ c
  show StableHlo.after hostOps0_1 (W1 m ρ c) (Proc.devRef .tc main_v14) = _
  generalize W1 m ρ c = V at h12 h13 hc ⊢
  after_results
  refine TRef.toBuf_eq_of_heq _ _ _ (heq_of_eq ?_)
  rw [TRef.ofBuf_toBuf, TRef.ofBuf_toBuf]
  rw [TRef.ofBuf_eq_of_heq (TRef.of main_v12 : TRef sig ⟨S100000, .i1⟩) _ _ (heq_of_eq h12),
    TRef.ofBuf_eq_of_heq (TRef.of main_v13 : TRef sig ⟨S100000, .f32⟩) _ _ (heq_of_eq h13),
    TRef.ofBuf_eq_of_heq (TRef.of main_cst_2 : TRef sig ⟨S_, .f32⟩) _ _ (heq_of_eq hc)]
  rfl

theorem w2_v3 : W2 m ρ c (Proc.devRef .tc main_v3) = val_main_v3 (F := Ideal) a7 := by
  have h := w1_v3 m ρ c
  show StableHlo.after hostOps0_1 (W1 m ρ c) (Proc.devRef .tc main_v3) = _
  generalize W1 m ρ c = V at h ⊢
  after_results
  exact h

theorem w2_v6 : W2 m ρ c (Proc.devRef .tc main_v6) = val_main_v6 (F := Ideal) a7 := by
  have h := w1_v6 m ρ c
  show StableHlo.after hostOps0_1 (W1 m ρ c) (Proc.devRef .tc main_v6) = _
  generalize W1 m ρ c = V at h ⊢
  after_results
  exact h

theorem w2_arg1 : W2 m ρ c (Proc.devRef .tc main_arg1) = a1 := by
  have h := w1_arg1 m ρ c
  show StableHlo.after hostOps0_1 (W1 m ρ c) (Proc.devRef .tc main_arg1) = _
  generalize W1 m ρ c = V at h ⊢
  after_results
  exact h

/-! ## At the first region's entry -/

/-- The sources with the self loops appended. -/
theorem w3_v3 : W3 m ρ c (Proc.devRef .tc main_v3) = val_main_v3 (F := Ideal) a7 := by
  have h := w2_v3 m ρ c
  show StableHlo.after hostOps0_2 (W2 m ρ c) (Proc.devRef .tc main_v3) = _
  generalize W2 m ρ c = V at h ⊢
  after_results
  exact h

/-- The targets with the self loops appended. -/
theorem w3_v6 : W3 m ρ c (Proc.devRef .tc main_v6) = val_main_v6 (F := Ideal) a7 := by
  have h := w2_v6 m ρ c
  show StableHlo.after hostOps0_2 (W2 m ρ c) (Proc.devRef .tc main_v6) = _
  generalize W2 m ρ c = V at h ⊢
  after_results
  exact h

set_option maxHeartbeats 2000000 in
/-- The edge weights: the product of the two endpoints' normalizations, as a column. -/
theorem w3_v30 : W3 m ρ c (Proc.devRef .tc main_v30) = val_main_v30 (F := Ideal) a7 := by
  have h3 := w2_v3 m ρ c
  have h6 := w2_v6 m ρ c
  have h14 := w2_v14 m ρ c
  show StableHlo.after hostOps0_2 (W2 m ρ c) (Proc.devRef .tc main_v30) = _
  generalize W2 m ρ c = V at h3 h6 h14 ⊢
  after_results_simp
  rw [h3, h6, h14]
  unfold val_main_v30 val_main_v29 val_main_v28 val_main_v27 val_main_v26 val_main_v25 val_main_v24 val_main_c_5 val_main_v23 val_main_v22 val_main_c_4 val_main_v21 val_main_v20 val_main_v19 val_main_v18 val_main_v17 val_main_c_3 val_main_v16 val_main_v15 val_main_c
  generalize val_main_v3 (F := Ideal) a7 = y3
  generalize val_main_v6 (F := Ideal) a7 = y6
  generalize val_main_v14 (F := Ideal) a7 = y14
  rfl

/-- The first layer's weight matrix. -/
theorem w3_v32 : W3 m ρ c (Proc.devRef .tc main_v32) = val_main_v32 (F := Ideal) a1 := by
  have h := w2_arg1 m ρ c
  show StableHlo.after hostOps0_2 (W2 m ρ c) (Proc.devRef .tc main_v32) = _
  generalize W2 m ρ c = V at h ⊢
  after_results
  rw [h]
  rfl

end Cert.KernelIdeal.StagePre

end
-- ==== Proof.ArgsPre.lean ====
/-
  The argument arrays at the first region's entry.

  No host operation before the first region writes an argument array, so at the region's entry each holds its
  launch contents.
-/
import proofs.«143770_j20968030339470_1_alg».proof.Proof.Gen.KernelIdeal.Frame

set_option maxRecDepth 16384

noncomputable section

namespace Cert.KernelIdeal.ArgsPre

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The float arguments and the graph assignment. -/
abbrev args : List (Ref sig .tc) :=
  [main_arg0, main_arg1, main_arg2, main_arg3, main_arg4, main_arg5, main_arg6, main_arg8]

/-- A host stretch leaves a buffer it does not write as it was: none of its operations' result buffers is `b`. -/
local macro "stretch_keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem pre2 (c : Dev nD) : ∀ b ∈ args, W3 m ρ c (Proc.devRef .tc b) = W2 m ρ c (Proc.devRef .tc b) := by
  intro b hb
  simp only [args, List.mem_cons, List.mem_nil_iff, or_false] at hb
  rcases hb with rfl | rfl | rfl | rfl | rfl | rfl | rfl | rfl
  all_goals stretch_keeps hostOps0_2

theorem pre1 (c : Dev nD) : ∀ b ∈ args, W2 m ρ c (Proc.devRef .tc b) = W1 m ρ c (Proc.devRef .tc b) := by
  intro b hb
  simp only [args, List.mem_cons, List.mem_nil_iff, or_false] at hb
  rcases hb with rfl | rfl | rfl | rfl | rfl | rfl | rfl | rfl
  all_goals stretch_keeps hostOps0_1

theorem pre0 (c : Dev nD) : ∀ b ∈ args, W1 m ρ c (Proc.devRef .tc b) = m ((c : Thread nD τ).loc b) := by
  intro b hb
  simp only [args, List.mem_cons, List.mem_nil_iff, or_false] at hb
  rcases hb with rfl | rfl | rfl | rfl | rfl | rfl | rfl | rfl
  all_goals
    refine Eq.trans (b := W0 m ρ c _) ?_ rfl
    stretch_keeps hostOps0

/-- At the first region's entry every argument array holds its launch contents. -/
theorem w3_arg (c : Dev nD) : ∀ b ∈ args, W3 m ρ c (Proc.devRef .tc b) = m ((c : Thread nD τ).loc b) :=
  fun b hb => ((pre2 m ρ c b hb).trans (pre1 m ρ c b hb)).trans (pre0 m ρ c b hb)

end Cert.KernelIdeal.ArgsPre

end
-- ==== Proof.KeepA.lean ====
/-
  Buffers that outlive a layer, carried across the boundaries of the first two layers.

  Between the first region's entry and the head, a handful of buffers are read again and again: the index vectors
  of the edges, the edge weights, and some argument arrays. No host stretch after the first region's entry writes
  them and no region before the head has one of them among its arrays, so each holds at every later boundary what
  it held at the first region's entry.
-/
import proofs.«143770_j20968030339470_1_alg».proof.Proof.Gen.KernelIdeal.Frame

set_option maxRecDepth 16384

noncomputable section

namespace Cert.KernelIdeal.KeepA

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers that outlive a layer: the edge sources and targets with the self loops appended, the edge weights,
    and the arguments the later stretches and the head still read. -/
abbrev live : List (Ref sig .tc) :=
  [main_arg1, main_arg2, main_arg3, main_arg4, main_arg5, main_arg6, main_arg8, main_v3, main_v6, main_v30]

/-- A host stretch leaves a buffer it does not write as it was: none of its operations' result buffers is `b`. -/
local macro "stretch_keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- Across the region entered at boundary 3: none of these is one of its arrays. -/
theorem step3 (c : Dev nD) : ∀ b ∈ live, W4 m ρ c (Proc.devRef .tc b) = W3 m ρ c (Proc.devRef .tc b) := by
  intro b hb
  simp only [live, List.mem_cons, List.mem_nil_iff, or_false] at hb
  rcases hb with rfl | rfl | rfl | rfl | rfl | rfl | rfl | rfl | rfl | rfl
  all_goals exact W4_of_ne m ρ c _ (by decide)

/-- Across the host stretch after boundary 4. -/
theorem step4 (c : Dev nD) : ∀ b ∈ live, W5 m ρ c (Proc.devRef .tc b) = W4 m ρ c (Proc.devRef .tc b) := by
  intro b hb
  simp only [live, List.mem_cons, List.mem_nil_iff, or_false] at hb
  rcases hb with rfl | rfl | rfl | rfl | rfl | rfl | rfl | rfl | rfl | rfl
  all_goals stretch_keeps hostOps1

/-- Across the region entered at boundary 5: none of these is one of its arrays. -/
theorem step5 (c : Dev nD) : ∀ b ∈ live, W6 m ρ c (Proc.devRef .tc b) = W5 m ρ c (Proc.devRef .tc b) := by
  intro b hb
  simp only [live, List.mem_cons, List.mem_nil_iff, or_false] at hb
  rcases hb with rfl | rfl | rfl | rfl | rfl | rfl | rfl | rfl | rfl | rfl
  all_goals exact W6_of_ne m ρ c _ (by decide)

/-- Across the host stretch after boundary 6. -/
theorem step6 (c : Dev nD) : ∀ b ∈ live, W7 m ρ c (Proc.devRef .tc b) = W6 m ρ c (Proc.devRef .tc b) := by
  intro b hb
  simp only [live, List.mem_cons, List.mem_nil_iff, or_false] at hb
  rcases hb with rfl | rfl | rfl | rfl | rfl | rfl | rfl | rfl | rfl | rfl
  all_goals stretch_keeps hostOps2

/-- Across the region entered at boundary 7: none of these is one of its arrays. -/
theorem step7 (c : Dev nD) : ∀ b ∈ live, W8 m ρ c (Proc.devRef .tc b) = W7 m ρ c (Proc.devRef .tc b) := by
  intro b hb
  simp only [live, List.mem_cons, List.mem_nil_iff, or_false] at hb
  rcases hb with rfl | rfl | rfl | rfl | rfl | rfl | rfl | rfl | rfl | rfl
  all_goals exact W8_of_ne m ρ c _ (by decide)

/-- Across the host stretch after boundary 8. -/
theorem step8 (c : Dev nD) : ∀ b ∈ live, W9 m ρ c (Proc.devRef .tc b) = W8 m ρ c (Proc.devRef .tc b) := by
  intro b hb
  simp only [live, List.mem_cons, List.mem_nil_iff, or_false] at hb
  rcases hb with rfl | rfl | rfl | rfl | rfl | rfl | rfl | rfl | rfl | rfl
  all_goals stretch_keeps hostOps3

/-- Across the region entered at boundary 9: none of these is one of its arrays. -/
theorem step9 (c : Dev nD) : ∀ b ∈ live, W10 m ρ c (Proc.devRef .tc b) = W9 m ρ c (Proc.devRef .tc b) := by
  intro b hb
  simp only [live, List.mem_cons, List.mem_nil_iff, or_false] at hb
  rcases hb with rfl | rfl | rfl | rfl | rfl | rfl | rfl | rfl | rfl | rfl
  all_goals exact W10_of_ne m ρ c _ (by decide)

/-- Across the host stretch after boundary 10. -/
theorem step10 (c : Dev nD) : ∀ b ∈ live, W11 m ρ c (Proc.devRef .tc b) = W10 m ρ c (Proc.devRef .tc b) := by
  intro b hb
  simp only [live, List.mem_cons, List.mem_nil_iff, or_false] at hb
  rcases hb with rfl | rfl | rfl | rfl | rfl | rfl | rfl | rfl | rfl | rfl
  all_goals stretch_keeps hostOps4

end Cert.KernelIdeal.KeepA

end
-- ==== Proof.KeepB.lean ====
/-
  Buffers that outlive a layer, carried across the boundaries of the last two layers and the pooling stretch.
-/
import proofs.«143770_j20968030339470_1_alg».proof.Proof.KeepA

set_option maxRecDepth 16384

noncomputable section

namespace Cert.KernelIdeal.KeepB

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

open Cert.KernelIdeal.KeepA (live)

/-- A host stretch leaves a buffer it does not write as it was: none of its operations' result buffers is `b`. -/
local macro "stretch_keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- Across the region entered at boundary 11: none of these is one of its arrays. -/
theorem step11 (c : Dev nD) : ∀ b ∈ live, W12 m ρ c (Proc.devRef .tc b) = W11 m ρ c (Proc.devRef .tc b) := by
  intro b hb
  simp only [live, List.mem_cons, List.mem_nil_iff, or_false] at hb
  rcases hb with rfl | rfl | rfl | rfl | rfl | rfl | rfl | rfl | rfl | rfl
  all_goals exact W12_of_ne m ρ c _ (by decide)

/-- Across the host stretch after boundary 12. -/
theorem step12 (c : Dev nD) : ∀ b ∈ live, W13 m ρ c (Proc.devRef .tc b) = W12 m ρ c (Proc.devRef .tc b) := by
  intro b hb
  simp only [live, List.mem_cons, List.mem_nil_iff, or_false] at hb
  rcases hb with rfl | rfl | rfl | rfl | rfl | rfl | rfl | rfl | rfl | rfl
  all_goals stretch_keeps hostOps5

/-- Across the region entered at boundary 13: none of these is one of its arrays. -/
theorem step13 (c : Dev nD) : ∀ b ∈ live, W14 m ρ c (Proc.devRef .tc b) = W13 m ρ c (Proc.devRef .tc b) := by
  intro b hb
  simp only [live, List.mem_cons, List.mem_nil_iff, or_false] at hb
  rcases hb with rfl | rfl | rfl | rfl | rfl | rfl | rfl | rfl | rfl | rfl
  all_goals exact W14_of_ne m ρ c _ (by decide)

/-- Across the host stretch after boundary 14. -/
theorem step14 (c : Dev nD) : ∀ b ∈ live, W15 m ρ c (Proc.devRef .tc b) = W14 m ρ c (Proc.devRef .tc b) := by
  intro b hb
  simp only [live, List.mem_cons, List.mem_nil_iff, or_false] at hb
  rcases hb with rfl | rfl | rfl | rfl | rfl | rfl | rfl | rfl | rfl | rfl
  all_goals stretch_keeps hostOps6

/-- Across the region entered at boundary 15: none of these is one of its arrays. -/
theorem step15 (c : Dev nD) : ∀ b ∈ live, W16 m ρ c (Proc.devRef .tc b) = W15 m ρ c (Proc.devRef .tc b) := by
  intro b hb
  simp only [live, List.mem_cons, List.mem_nil_iff, or_false] at hb
  rcases hb with rfl | rfl | rfl | rfl | rfl | rfl | rfl | rfl | rfl | rfl
  all_goals exact W16_of_ne m ρ c _ (by decide)

/-- Across the host stretch after boundary 16. -/
theorem step16 (c : Dev nD) : ∀ b ∈ live, W17 m ρ c (Proc.devRef .tc b) = W16 m ρ c (Proc.devRef .tc b) := by
  intro b hb
  simp only [live, List.mem_cons, List.mem_nil_iff, or_false] at hb
  rcases hb with rfl | rfl | rfl | rfl | rfl | rfl | rfl | rfl | rfl | rfl
  all_goals stretch_keeps hostOps7

/-- Across the region entered at boundary 17: none of these is one of its arrays. -/
theorem step17 (c : Dev nD) : ∀ b ∈ live, W18 m ρ c (Proc.devRef .tc b) = W17 m ρ c (Proc.devRef .tc b) := by
  intro b hb
  simp only [live, List.mem_cons, List.mem_nil_iff, or_false] at hb
  rcases hb with rfl | rfl | rfl | rfl | rfl | rfl | rfl | rfl | rfl | rfl
  all_goals exact W18_of_ne m ρ c _ (by decide)

/-- Across the host stretch after boundary 18. -/
theorem step18 (c : Dev nD) : ∀ b ∈ live, W19 m ρ c (Proc.devRef .tc b) = W18 m ρ c (Proc.devRef .tc b) := by
  intro b hb
  simp only [live, List.mem_cons, List.mem_nil_iff, or_false] at hb
  rcases hb with rfl | rfl | rfl | rfl | rfl | rfl | rfl | rfl | rfl | rfl
  all_goals stretch_keeps hostOps8

end Cert.KernelIdeal.KeepB

end
-- ==== Proof.Keep.lean ====
/-
  Buffers that outlive a layer hold, at every boundary up to the head's entry, what they held at the first region's
  entry: the boundary-to-boundary steps composed.
-/
import proofs.«143770_j20968030339470_1_alg».proof.Proof.KeepA
import proofs.«143770_j20968030339470_1_alg».proof.Proof.KeepB

noncomputable section

namespace Cert.KernelIdeal.Keep

open Cert.KernelIdeal Cert.KernelIdeal.Gen
open Cert.KernelIdeal.KeepA (live)
open Idealize.ShloMosaic Idealize.ShloMosaic.TcCoe Idealize.SL.Sem

variable {F : FTy → Type} [FloatOps F]
variable (m : (ℓ : Loc nD τ sig) → Buf (Elt F) ℓ) (ρ : Dev nD → PrngReg)

theorem to4 (c : Dev nD) : ∀ b ∈ live, W4 m ρ c (Proc.devRef .tc b) = W3 m ρ c (Proc.devRef .tc b) :=
  KeepA.step3 m ρ c

theorem to5 (c : Dev nD) : ∀ b ∈ live, W5 m ρ c (Proc.devRef .tc b) = W3 m ρ c (Proc.devRef .tc b) :=
  fun b hb => (KeepA.step4 m ρ c b hb).trans (to4 m ρ c b hb)

theorem to6 (c : Dev nD) : ∀ b ∈ live, W6 m ρ c (Proc.devRef .tc b) = W3 m ρ c (Proc.devRef .tc b) :=
  fun b hb => (KeepA.step5 m ρ c b hb).trans (to5 m ρ c b hb)

theorem to7 (c : Dev nD) : ∀ b ∈ live, W7 m ρ c (Proc.devRef .tc b) = W3 m ρ c (Proc.devRef .tc b) :=
  fun b hb => (KeepA.step6 m ρ c b hb).trans (to6 m ρ c b hb)

theorem to8 (c : Dev nD) : ∀ b ∈ live, W8 m ρ c (Proc.devRef .tc b) = W3 m ρ c (Proc.devRef .tc b) :=
  fun b hb => (KeepA.step7 m ρ c b hb).trans (to7 m ρ c b hb)

theorem to9 (c : Dev nD) : ∀ b ∈ live, W9 m ρ c (Proc.devRef .tc b) = W3 m ρ c (Proc.devRef .tc b) :=
  fun b hb => (KeepA.step8 m ρ c b hb).trans (to8 m ρ c b hb)

theorem to10 (c : Dev nD) : ∀ b ∈ live, W10 m ρ c (Proc.devRef .tc b) = W3 m ρ c (Proc.devRef .tc b) :=
  fun b hb => (KeepA.step9 m ρ c b hb).trans (to9 m ρ c b hb)

theorem to11 (c : Dev nD) : ∀ b ∈ live, W11 m ρ c (Proc.devRef .tc b) = W3 m ρ c (Proc.devRef .tc b) :=
  fun b hb => (KeepA.step10 m ρ c b hb).trans (to10 m ρ c b hb)

theorem to12 (c : Dev nD) : ∀ b ∈ live, W12 m ρ c (Proc.devRef .tc b) = W3 m ρ c (Proc.devRef .tc b) :=
  fun b hb => (KeepB.step11 m ρ c b hb).trans (to11 m ρ c b hb)

theorem to13 (c : Dev nD) : ∀ b ∈ live, W13 m ρ c (Proc.devRef .tc b) = W3 m ρ c (Proc.devRef .tc b) :=
  fun b hb => (KeepB.step12 m ρ c b hb).trans (to12 m ρ c b hb)

theorem to14 (c : Dev nD) : ∀ b ∈ live, W14 m ρ c (Proc.devRef .tc b) = W3 m ρ c (Proc.devRef .tc b) :=
  fun b hb => (KeepB.step13 m ρ c b hb).trans (to13 m ρ c b hb)

theorem to15 (c : Dev nD) : ∀ b ∈ live, W15 m ρ c (Proc.devRef .tc b) = W3 m ρ c (Proc.devRef .tc b) :=
  fun b hb => (KeepB.step14 m ρ c b hb).trans (to14 m ρ c b hb)

theorem to16 (c : Dev nD) : ∀ b ∈ live, W16 m ρ c (Proc.devRef .tc b) = W3 m ρ c (Proc.devRef .tc b) :=
  fun b hb => (KeepB.step15 m ρ c b hb).trans (to15 m ρ c b hb)

theorem to17 (c : Dev nD) : ∀ b ∈ live, W17 m ρ c (Proc.devRef .tc b) = W3 m ρ c (Proc.devRef .tc b) :=
  fun b hb => (KeepB.step16 m ρ c b hb).trans (to16 m ρ c b hb)

theorem to18 (c : Dev nD) : ∀ b ∈ live, W18 m ρ c (Proc.devRef .tc b) = W3 m ρ c (Proc.devRef .tc b) :=
  fun b hb => (KeepB.step17 m ρ c b hb).trans (to17 m ρ c b hb)

theorem to19 (c : Dev nD) : ∀ b ∈ live, W19 m ρ c (Proc.devRef .tc b) = W3 m ρ c (Proc.devRef .tc b) :=
  fun b hb => (KeepB.step18 m ρ c b hb).trans (to18 m ρ c b hb)

end Cert.KernelIdeal.Keep

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.LibColumn.lean ====
/-
  A column kept beside its matrix: the two layout steps of a keep-dimension reduction, read at an index.

  A vector of `a` entries cast to an `a × 1` column reads, at row p, the vector's entry p; an `a × 1` column broadcast
  over `b` columns reads, at (p, c), the column's entry at row p. Together: a per-row quantity (a row's maximum, a
  row's sum) placed beside every entry of its row.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast over the columns reads, at `(p, c)`, the vector at `p`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.PayDense.lean ====
/-
  What each kernel body stores, as a function of the blocks it loads.

  The transform kernel stores the matrix product of its row block with the weight matrix (the casts to a narrower
  float format are the identity on the extended reals, and the product is accumulated onto zero). The bias kernel
  stores the row block with the bias row added to every row, clamped at zero. The head kernel stores, for every
  graph, its summed features divided by its node count (at least one), through the two affine maps with the clamp
  between them.
-/
import proofs.«143770_j20968030339470_1_alg».proof.Proof.Gen.KernelIdeal.Skeleton
import proofs.«143770_j20968030339470_1_alg».proof.Proof.Dense
import proofs.«143770_j20968030339470_1_alg».proof.Proof.LibPlainDot
import proofs.«143770_j20968030339470_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.Dense Idealize.ShloMosaic Idealize.ShloMosaic.ValueIdx

/-- The first layer's transform: the row block times the weight matrix. -/
theorem transform0 (x : Vec Ideal S5000x128 .f32) (w : Vec Ideal S128x128 .f32) :
    Gen.k0_pay1 (F := Ideal) x w = mm (M := 5000) (K := 128) (N := 128) x w := by
  funext j
  obtain ⟨p, q, rfl⟩ : ∃ (p : Fin 5000) (q : Fin 128), j = ix2 p q := ⟨j 0, j 1, eq_ix2 j⟩
  rw [mm_apply]
  unfold Gen.k0_pay1
  refine (PlainDot.matmul_zero_apply _ none _ _ p q).trans ?_
  rw [shapeCast_self]
  rfl

/-- A later layer's transform: the same product (its row block comes through an identity cast). -/
theorem transform2 (x : Vec Ideal S5000x128 .f32) (w : Vec Ideal S128x128 .f32) :
    Gen.k2_pay1 (F := Ideal) x w = mm (M := 5000) (K := 128) (N := 128) x w := by
  funext j
  obtain ⟨p, q, rfl⟩ : ∃ (p : Fin 5000) (q : Fin 128), j = ix2 p q := ⟨j 0, j 1, eq_ix2 j⟩
  rw [mm_apply]
  unfold Gen.k2_pay1
  refine (PlainDot.matmul_zero_apply _ none _ _ p q).trans ?_
  rw [shapeCast_self, shapeCast_self]
  rfl

theorem transform4 (x : Vec Ideal S5000x128 .f32) (w : Vec Ideal S128x128 .f32) :
    Gen.k4_pay1 (F := Ideal) x w = mm (M := 5000) (K := 128) (N := 128) x w := transform2 x w

theorem transform6 (x : Vec Ideal S5000x128 .f32) (w : Vec Ideal S128x128 .f32) :
    Gen.k6_pay1 (F := Ideal) x w = mm (M := 5000) (K := 128) (N := 128) x w := transform2 x w

/-- The bias kernel: the bias row added to every row of the block, clamped at zero. -/
theorem bias1 (a : Vec Ideal S5000x128 .f32) (b : Vec Ideal S1x128 .f32) :
    Gen.k1_pay1 (F := Ideal) a b = biasRelu (M := 5000) (N := 128) a b := by
  funext j
  obtain ⟨p, q, rfl⟩ : ∃ (p : Fin 5000) (q : Fin 128), j = ix2 p q := ⟨j 0, j 1, eq_ix2 j⟩
  rw [biasRelu_apply]
  unfold Gen.k1_pay1
  rw [shapeCast_self, shapeCast_self]
  show max (a (ix2 p q) + broadcastTo S5000x128 b _ (ix2 p q)) _ = _
  rw [broadcastTo_1b_ab_apply]
  rfl

theorem bias3 (a : Vec Ideal S5000x128 .f32) (b : Vec Ideal S1x128 .f32) :
    Gen.k3_pay1 (F := Ideal) a b = biasRelu (M := 5000) (N := 128) a b := bias1 a b

theorem bias5 (a : Vec Ideal S5000x128 .f32) (b : Vec Ideal S1x128 .f32) :
    Gen.k5_pay1 (F := Ideal) a b = biasRelu (M := 5000) (N := 128) a b := bias1 a b

theorem bias7 (a : Vec Ideal S5000x128 .f32) (b : Vec Ideal S1x128 .f32) :
    Gen.k7_pay1 (F := Ideal) a b = biasRelu (M := 5000) (N := 128) a b := bias1 a b

/-- The head kernel: mean features through the two affine maps, clamped at zero in between. -/
theorem head8 (s : Vec Ideal S2000x128 .f32) (cnt : Vec Ideal S2000x1 .f32) (w1 : Vec Ideal S128x256 .f32)
    (b1 : Vec Ideal S1x256 .f32) (w2 : Vec Ideal S256x1 .f32) (b2 : Vec Ideal S1x1 .f32) :
    Gen.k8_pay1 (F := Ideal) s cnt w1 b1 w2 b2
      = head (G := 2000) (D := 128) (H := 256) (O := 1) s cnt w1 b1 w2 b2 := by
  funext j
  obtain ⟨p, q, rfl⟩ : ∃ (p : Fin 2000) (q : Fin 1), j = ix2 p q := ⟨j 0, j 1, eq_ix2 j⟩
  unfold head
  rw [addRow_apply, mm_apply]
  unfold Gen.k8_pay1
  simp only [shapeCast_self]
  show (_ : EReal) + broadcastTo S2000x1 b2 _ (ix2 p q) = _
  rw [broadcastTo_1b_ab_apply]
  refine congrArg (· + b2 (ix2 0 q)) ?_
  refine (PlainDot.matmul_zero_apply _ none _ _ p q).trans ?_
  refine Finset.sum_congr rfl fun k _ => ?_
  refine congrArg (· * w2 (ix2 k q)) ?_
  rw [biasRelu_apply, mm_apply]
  show max ((_ : EReal) + broadcastTo S2000x256 b1 _ (ix2 p k)) _ = _
  rw [broadcastTo_1b_ab_apply]
  refine congrArg (fun z => max (z + b1 (ix2 0 k)) zeroWord) ?_
  refine (PlainDot.matmul_zero_apply _ none _ _ p k).trans ?_
  refine Finset.sum_congr rfl fun l _ => ?_
  refine congrArg (· * w1 (ix2 l k)) ?_
  rw [meanRows_apply]
  show Ideal.div (s (ix2 p l)) (broadcastTo S2000x128 _ _ (ix2 p l)) = _
  rw [Column.broadcastTo_a1_ab_apply]
  rfl

end Cert.KernelIdeal.Pay

end
-- ==== Proof.Region0.lean ====
/-
  Region 0: a layer's dense transform, as one function of the arrays the region finds.

  The grid has 20 points; point t takes rows 5000·t … 5000·t + 4999 of the node features and the whole 128 × 128
  weight matrix, and writes back the same rows of the product. The row blocks tile the array, so after the last
  point the output array is the matrix product of the two input arrays as the region found them.
-/
import proofs.«143770_j20968030339470_1_alg».proof.Proof.Gen.KernelIdeal.Frame
import proofs.«143770_j20968030339470_1_alg».proof.Proof.PayDense

set_option maxRecDepth 16384

noncomputable section

namespace Cert.KernelIdeal.Region0

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature rows and the output rows move with the point, the
    weight matrix stays. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `5000 t …` of the feature array. -/
theorem rows_apply (c : Dev nD) (t : Fin cfg0.N) (p : Fin 5000) (k : Fin 128) (i : S100000x128.Idx)
    (h0 : (i 0).val = t.val * 5000 + p.val) (h1 : (i 1).val = k.val) :
    (iblk0 V c 0 t : Vec Ideal S5000x128 .f32) (ix2 p k) = (V c main_arg0 : S100000x128.Idx → EReal) i := by
  obtain ⟨e00, e01, -⟩ := idx t
  unfold iblk0
  rw [View.read_apply]
  show V c main_arg0 _ = V c main_arg0 _
  congr 1
  funext a
  apply Fin.ext
  match a with
  | ⟨0, _⟩ => show win0_0.index t 0 * 5000 + 1 * p.val = (i 0).val; rw [e00, h0]; omega
  | ⟨1, _⟩ => show win0_0.index t 1 * 128 + 1 * k.val = (i 1).val; rw [e01, h1]; omega

/-- The weight block at every point is the whole weight matrix. -/
theorem weights_apply (c : Dev nD) (t : Fin cfg0.N) (k : Fin 128) (q : Fin 128) :
    (iblk0 V c 1 t : Vec Ideal S128x128 .f32) (ix2 k q) = (V c main_v32 : S128x128.Idx → EReal) (ix2 k q) := by
  obtain ⟨-, -, e10, e11, -⟩ := idx t
  unfold iblk0
  rw [View.read_apply]
  show V c main_v32 _ = V c main_v32 _
  congr 1
  funext a
  apply Fin.ext
  match a with
  | ⟨0, _⟩ => show win0_1.index t 0 * 128 + 1 * k.val = k.val; rw [e10]; omega
  | ⟨1, _⟩ => show win0_1.index t 1 * 128 + 1 * q.val = q.val; rw [e11]; omega

set_option maxHeartbeats 1000000 in
/-- What point `t` writes back is block `t` of the product of the two arrays. -/
theorem flushed (c : Dev nD) (t : Fin cfg0.N) :
    (dat0 V c).flushed 2 t = ((cfg0.win 2).blk t).view.read (Elt Ideal)
      (mm (M := 100000) (K := 128) (N := 128) (V c main_arg0) (V c main_v32)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [Pay.transform0]
  obtain ⟨-, -, -, -, e20, e21⟩ := idx t
  funext j
  obtain ⟨p, q, rfl⟩ : ∃ (p : Fin 5000) (q : Fin 128), j = ix2 p q := ⟨j 0, j 1, eq_ix2 j⟩
  rw [View.read_apply]
  show mm (M := 5000) (K := 128) (N := 128) (iblk0 V c 0 t) (iblk0 V c 1 t) (ix2 p q) = _
  rw [mm_apply]
  unfold mm
  refine Finset.sum_congr rfl fun k _ => ?_
  rw [weights_apply V c t k q]
  rw [rows_apply V c t p k (ix2 ((((cfg0.win 2).blk t).view.emb (ix2 p q)) 0) k)
    (by show win0_2.index t 0 * 5000 + 1 * p.val = t.val * 5000 + p.val; rw [e20]; omega) rfl]
  congr 2
  funext a
  apply Fin.ext
  match a with
  | ⟨0, _⟩ => rfl
  | ⟨1, _⟩ => show q.val = win0_2.index t 1 * 128 + 1 * q.val; rw [e21]; omega

/-- Every row of the output array lies in the block of the point `row / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, e20, e21⟩ := idx ⟨(i 0).val / 5000, ht⟩
  refine ⟨⟨(i 0).val / 5000, ht⟩, flush0_2 _, ?_⟩
  show i ∈ ((View.whole main_v33).slice (win0_2.rect ⟨(i 0).val / 5000, ht⟩)).set
  rw [View.set_slice_whole, Rect.mem_set_unit]
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e20]; show (i 0).val / 5000 * 5000 ≤ (i 0).val ∧ (i 0).val < (i 0).val / 5000 * 5000 + 5000; omega
  | ⟨1, _⟩ =>
    show win0_2.index ⟨(i 0).val / 5000, ht⟩ 1 * 128 ≤ (i 1).val ∧ (i 1).val < win0_2.index ⟨(i 0).val / 5000, ht⟩ 1 * 128 + 128
    rw [e21]; omega

/-- THE REGION'S EXIT: the output array is the product of the two input arrays as the region found them. -/
theorem exit_eq (c : Dev nD) :
    (dat0 V c).arrAt 2 cfg0.N = mm (M := 100000) (K := 128) (N := 128) (V c main_arg0) (V c main_v32) :=
  (dat0 V c).arrAt_eq_of_cover 2 _ (fun t _ => flushed V c t) cover

end Cert.KernelIdeal.Region0

end
-- ==== Proof.Region1.lean ====
/-
  Region 1: a layer's bias and clamp, as one function of the arrays the region finds.

  The grid has 20 points; point t takes rows 5000·t … 5000·t + 4999 of the aggregated features and the one bias
  row, and writes back the same rows with the bias added and the clamp at zero applied. The row blocks tile the
  array, so after the last point the output array is that function of the two input arrays as the region found them.
-/
import proofs.«143770_j20968030339470_1_alg».proof.Proof.Gen.KernelIdeal.Frame
import proofs.«143770_j20968030339470_1_alg».proof.Proof.PayDense

set_option maxRecDepth 16384

noncomputable section

namespace Cert.KernelIdeal.Region1

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature rows and the output rows move with the point, the
    bias row stays. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature block at point `t` is rows `5000 t …` of the feature array. -/
theorem rows_apply (c : Dev nD) (t : Fin cfg1.N) (p : Fin 5000) (k : Fin 128) (i : S100000x128.Idx)
    (h0 : (i 0).val = t.val * 5000 + p.val) (h1 : (i 1).val = k.val) :
    (iblk1 V c 0 t : Vec Ideal S5000x128 .f32) (ix2 p k) = (V c main_v45 : S100000x128.Idx → EReal) i := by
  obtain ⟨e00, e01, -⟩ := idx t
  unfold iblk1
  rw [View.read_apply]
  show V c main_v45 _ = V c main_v45 _
  congr 1
  funext a
  apply Fin.ext
  match a with
  | ⟨0, _⟩ => show win1_0.index t 0 * 5000 + 1 * p.val = (i 0).val; rw [e00, h0]; omega
  | ⟨1, _⟩ => show win1_0.index t 1 * 128 + 1 * k.val = (i 1).val; rw [e01, h1]; omega

/-- The bias block at every point is the whole bias row. -/
theorem bias_apply (c : Dev nD) (t : Fin cfg1.N) (u : Fin 1) (q : Fin 128) :
    (iblk1 V c 1 t : Vec Ideal S1x128 .f32) (ix2 u q) = (V c main_v48 : S1x128.Idx → EReal) (ix2 u q) := by
  obtain ⟨-, -, e10, e11, -⟩ := idx t
  unfold iblk1
  rw [View.read_apply]
  show V c main_v48 _ = V c main_v48 _
  congr 1
  funext a
  apply Fin.ext
  match a with
  | ⟨0, _⟩ => show win1_1.index t 0 * 1 + 1 * u.val = u.val; rw [e10]; omega
  | ⟨1, _⟩ => show win1_1.index t 1 * 128 + 1 * q.val = q.val; rw [e11]; omega

set_option maxHeartbeats 1000000 in
/-- What point `t` writes back is block `t` of the biased, clamped array. -/
theorem flushed (c : Dev nD) (t : Fin cfg1.N) :
    (dat1 V c).flushed 2 t = ((cfg1.win 2).blk t).view.read (Elt Ideal)
      (biasRelu (M := 100000) (N := 128) (V c main_v45) (V c main_v48)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  rw [Pay.bias1]
  obtain ⟨-, -, -, -, e20, e21⟩ := idx t
  funext j
  obtain ⟨p, q, rfl⟩ : ∃ (p : Fin 5000) (q : Fin 128), j = ix2 p q := ⟨j 0, j 1, eq_ix2 j⟩
  rw [View.read_apply]
  show biasRelu (M := 5000) (N := 128) (iblk1 V c 0 t) (iblk1 V c 1 t) (ix2 p q) = _
  rw [biasRelu_apply]
  unfold biasRelu
  rw [bias_apply V c t 0 q]
  rw [rows_apply V c t p q (((cfg1.win 2).blk t).view.emb (ix2 p q))
    (by show win1_2.index t 0 * 5000 + 1 * p.val = t.val * 5000 + p.val; rw [e20]; omega)
    (by show win1_2.index t 1 * 128 + 1 * q.val = q.val; rw [e21]; omega)]
  congr 3
  funext a
  apply Fin.ext
  match a with
  | ⟨0, _⟩ => rfl
  | ⟨1, _⟩ => show q.val = win1_2.index t 1 * 128 + 1 * q.val; rw [e21]; omega

/-- Every row of the output array lies in the block of the point `row / 5000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, e20, e21⟩ := idx ⟨(i 0).val / 5000, ht⟩
  refine ⟨⟨(i 0).val / 5000, ht⟩, flush1_2 _, ?_⟩
  show i ∈ ((View.whole main_v49).slice (win1_2.rect ⟨(i 0).val / 5000, ht⟩)).set
  rw [View.set_slice_whole, Rect.mem_set_unit]
  intro a
  match a with
  | ⟨0, _⟩ =>
    show win1_2.index ⟨(i 0).val / 5000, ht⟩ 0 * 5000 ≤ (i 0).val ∧ (i 0).val < win1_2.index ⟨(i 0).val / 5000, ht⟩ 0 * 5000 + 5000
    rw [e20]; show (i 0).val / 5000 * 5000 ≤ (i 0).val ∧ (i 0).val < (i 0).val / 5000 * 5000 + 5000; omega
  | ⟨1, _⟩ =>
    show win1_2.index ⟨(i 0).val / 5000, ht⟩ 1 * 128 ≤ (i 1).val ∧ (i 1).val < win1_2.index ⟨(i 0).val / 5000, ht⟩ 1 * 128 + 128
    rw [e21]; omega

/-- THE REGION'S EXIT: the output array is the biased, clamped input array, both as the region found them. -/
theorem exit_eq (c : Dev nD) :
    (dat1 V c).arrAt 2 cfg1.N = biasRelu (M := 100000) (N := 128) (V c main_v45) (V c main_v48) :=
  (dat1 V c).arrAt_eq_of_cover 2 _ (fun t _ => flushed V c t) cover

end Cert.KernelIdeal.Region1

end
-- ==== Proof.RefDense.lean ====
/-
  The reference's dense steps, as the same whole-array functions.

  On the host a bias vector is spread over the nodes by two broadcasts (a vector to one row, the row to every row),
  the clamp's zero by a scalar broadcast, a per-graph count by two broadcasts (a vector to a column, the column to
  every column), and a matrix product is one contraction. Read at an index each is what the kernel's layout step
  reads: the bias at its column, the count at its row, the product as the sum over the contracted axis. So each
  layer's transform is the matrix product of its input with its weight matrix, each layer's clamp is the biased
  clamp of its aggregate, and the last operations are the head of the pooled sums and counts.
-/
import proofs.«143770_j20968030339470_1_alg».proof.Proof.RefRead
import proofs.«143770_j20968030339470_1_alg».proof.Proof.Dense
import proofs.«143770_j20968030339470_1_alg».proof.Proof.LibPlainDot
import proofs.«143770_j20968030339470_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.Dense

open Idealize.ShloMosaic Idealize.ShloMosaic.ValueIdx

variable {α : Type}

/-- A scalar spread over an array reads the scalar everywhere. -/
theorem bcastScalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- A vector made one row and the row spread over `M` rows reads, at `(r, q)`, the vector at `q`. -/
theorem bcastRow_apply {M N : Nat} (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → α)
    (r : Fin M) (q : Fin N) :
    broadcastInDim ⟨2, ![M, N]⟩ ![0, 1] h2 (broadcastInDim ⟨2, ![1, N]⟩ ![1] h1 b) (ix2 r q) = b (ix1 q) := by
  refine (broadcastInDim_apply _ h2 _ (ix2 r q) (ix2 (0 : Fin 1) q) fun a => ?_).trans
    (broadcastInDim_apply _ h1 b (ix2 (0 : Fin 1) q) (ix1 q) fun a => ?_)
  · match a with
    | ⟨0, _⟩ => show 0 = if (1 : Nat) = 1 then 0 else r.val; rw [if_pos rfl]
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-- A vector made one column and the column spread over `N` columns reads, at `(r, q)`, the vector at `r`. -/
theorem bcastCol_apply {M N : Nat} (h1 : (⟨1, ![M]⟩ : Shape).BroadcastsInDim ⟨2, ![M, 1]⟩ ![0])
    (h2 : (⟨2, ![M, 1]⟩ : Shape).BroadcastsInDim ⟨2, ![M, N]⟩ ![0, 1]) (v : (⟨1, ![M]⟩ : Shape).Idx → α)
    (r : Fin M) (q : Fin N) :
    broadcastInDim ⟨2, ![M, N]⟩ ![0, 1] h2 (broadcastInDim ⟨2, ![M, 1]⟩ ![0] h1 v) (ix2 r q) = v (ix1 r) := by
  refine (broadcastInDim_apply _ h2 _ (ix2 r q) (ix2 r (0 : Fin 1)) fun a => ?_).trans
    (broadcastInDim_apply _ h1 v (ix2 r (0 : Fin 1)) (ix1 r) fun a => ?_)
  · match a with
    | ⟨0, _⟩ =>
      show r.val = if M = 1 then 0 else r.val
      split
      · have := r.isLt; omega
      · rfl
    | ⟨1, _⟩ => show 0 = if (1 : Nat) = 1 then 0 else q.val; rw [if_pos rfl]
  · match a with
    | ⟨0, _⟩ =>
      show r.val = if M = 1 then 0 else r.val
      split
      · have := r.isLt; omega
      · rfl

/-- The host's contraction of an `M × K` with a `K × N` matrix is the matrix product. -/
theorem host_mm {M K N : Nat} (wf : DotDims.WF ⟨2, ![M, K]⟩ ⟨2, ![K, N]⟩ ⟨2, ![M, N]⟩ [1] [0] [0] [1] [] [])
    (X : FVec Ideal ⟨2, ![M, K]⟩ .f32) (W : FVec Ideal ⟨2, ![K, N]⟩ .f32) :
    Host.dotGeneral (F := Ideal) (PlainDot.dims M K N wf) none X W = mm X W := by
  funext i
  obtain ⟨r, q, rfl⟩ : ∃ (r : Fin M) (q : Fin N), i = ix2 r q := ⟨i 0, i 1, eq_ix2 i⟩
  exact PlainDot.dotGeneral_apply wf none .single X W r q

/-- The host's bias and clamp: the bias vector spread over the rows, added, and the maximum with a spread zero taken;
    the same as the biased clamp with the vector laid out as one row. -/
theorem host_biasRelu {M N : Nat} (A : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf A (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = biasRelu A (shapeCast ⟨2, ![1, N]⟩ b hc) := by
  funext i
  obtain ⟨r, q, rfl⟩ : ∃ (r : Fin M) (q : Fin N), i = ix2 r q := ⟨i 0, i 1, eq_ix2 i⟩
  rw [biasRelu_apply]
  show max (A (ix2 r q) + broadcastInDim ⟨2, ![M, N]⟩ ![0, 1] h2 (broadcastInDim ⟨2, ![1, N]⟩ ![1] h1 b) (ix2 r q))
      (broadcastInDim ⟨2, ![M, N]⟩ ![] h0 (constant (F := Ideal) ⟨0, ![]⟩ .f32 0x00000000#32) (ix2 r q)) = _
  rw [bcastRow_apply, bcastScalar_apply, shapeCast_a_1a_apply]
  rfl

end Cert.Dense

namespace Cert.ReferenceIdeal.Layers

open Cert.ReferenceIdeal Cert.ReferenceIdeal.ReadP Cert.Dense Idealize.ShloMosaic Idealize.ShloMosaic.ValueIdx

/-- Layer 1's transform: the features times the layer's weight matrix. -/
theorem layer1_transform (x0 : (⟨S100000x128, .f32⟩ : BufTy).Contents (Elt Ideal)) (x1 : (⟨S4x128x128, .f32⟩ : BufTy).Contents (Elt Ideal)) :
    val_main_v33 (F := Ideal) x0 x1
      = mm (M := 100000) (K := 128) (N := 128) x0 (val_main_v32 (F := Ideal) x1) := by
  unfold val_main_v33
  exact host_mm _ _ _

/-- Layer 1's clamp: the aggregated features with the bias row added to every row, clamped at zero. -/
theorem layer1_clamp (x0 : (⟨S100000x128, .f32⟩ : BufTy).Contents (Elt Ideal)) (x1 : (⟨S4x128x128, .f32⟩ : BufTy).Contents (Elt Ideal))
    (x2 : (⟨S4x128, .f32⟩ : BufTy).Contents (Elt Ideal)) (x7 : (⟨S2x600000, .i32⟩ : BufTy).Contents (Elt Ideal))
    (hc : (⟨1, ![128]⟩ : Shape).ShapeCasts ⟨2, ![1, 128]⟩) :
    val_main_v51 (F := Ideal) x0 x1 x2 x7
      = biasRelu (M := 100000) (N := 128) (val_main_v45 (F := Ideal) x0 x1 x7)
          (shapeCast ⟨2, ![1, 128]⟩ (val_main_v47 (F := Ideal) x2) hc) := by
  unfold val_main_v51 val_main_v50 val_main_v49 val_main_v48 val_main_call1_v0 val_main_call1_cst
  exact host_biasRelu _ _ _ _ _ hc

/-- Layer 2's transform: the features times the layer's weight matrix. -/
theorem layer2_transform (x0 : (⟨S100000x128, .f32⟩ : BufTy).Contents (Elt Ideal)) (x1 : (⟨S4x128x128, .f32⟩ : BufTy).Contents (Elt Ideal))
    (x2 : (⟨S4x128, .f32⟩ : BufTy).Contents (Elt Ideal)) (x7 : (⟨S2x600000, .i32⟩ : BufTy).Contents (Elt Ideal)) :
    val_main_v54 (F := Ideal) x0 x1 x2 x7
      = mm (M := 100000) (K := 128) (N := 128) (val_main_v51 (F := Ideal) x0 x1 x2 x7) (val_main_v53 (F := Ideal) x1) := by
  unfold val_main_v54
  exact host_mm _ _ _

/-- Layer 2's clamp: the aggregated features with the bias row added to every row, clamped at zero. -/
theorem layer2_clamp (x0 : (⟨S100000x128, .f32⟩ : BufTy).Contents (Elt Ideal)) (x1 : (⟨S4x128x128, .f32⟩ : BufTy).Contents (Elt Ideal))
    (x2 : (⟨S4x128, .f32⟩ : BufTy).Contents (Elt Ideal)) (x7 : (⟨S2x600000, .i32⟩ : BufTy).Contents (Elt Ideal))
    (hc : (⟨1, ![128]⟩ : Shape).ShapeCasts ⟨2, ![1, 128]⟩) :
    val_main_v72 (F := Ideal) x0 x1 x2 x7
      = biasRelu (M := 100000) (N := 128) (val_main_v66 (F := Ideal) x0 x1 x2 x7)
          (shapeCast ⟨2, ![1, 128]⟩ (val_main_v68 (F := Ideal) x2) hc) := by
  unfold val_main_v72 val_main_v71 val_main_v70 val_main_v69 val_main_call2_v0 val_main_call2_cst
  exact host_biasRelu _ _ _ _ _ hc

/-- Layer 3's transform: the features times the layer's weight matrix. -/
theorem layer3_transform (x0 : (⟨S100000x128, .f32⟩ : BufTy).Contents (Elt Ideal)) (x1 : (⟨S4x128x128, .f32⟩ : BufTy).Contents (Elt Ideal))
    (x2 : (⟨S4x128, .f32⟩ : BufTy).Contents (Elt Ideal)) (x7 : (⟨S2x600000, .i32⟩ : BufTy).Contents (Elt Ideal)) :
    val_main_v75 (F := Ideal) x0 x1 x2 x7
      = mm (M := 100000) (K := 128) (N := 128) (val_main_v72 (F := Ideal) x0 x1 x2 x7) (val_main_v74 (F := Ideal) x1) := by
  unfold val_main_v75
  exact host_mm _ _ _

/-- Layer 3's clamp: the aggregated features with the bias row added to every row, clamped at zero. -/
theorem layer3_clamp (x0 : (⟨S100000x128, .f32⟩ : BufTy).Contents (Elt Ideal)) (x1 : (⟨S4x128x128, .f32⟩ : BufTy).Contents (Elt Ideal))
    (x2 : (⟨S4x128, .f32⟩ : BufTy).Contents (Elt Ideal)) (x7 : (⟨S2x600000, .i32⟩ : BufTy).Contents (Elt Ideal))
    (hc : (⟨1, ![128]⟩ : Shape).ShapeCasts ⟨2, ![1, 128]⟩) :
    val_main_v93 (F := Ideal) x0 x1 x2 x7
      = biasRelu (M := 100000) (N := 128) (val_main_v87 (F := Ideal) x0 x1 x2 x7)
          (shapeCast ⟨2, ![1, 128]⟩ (val_main_v89 (F := Ideal) x2) hc) := by
  unfold val_main_v93 val_main_v92 val_main_v91 val_main_v90 val_main_call3_v0 val_main_call3_cst
  exact host_biasRelu _ _ _ _ _ hc

/-- Layer 4's transform: the features times the layer's weight matrix. -/
theorem layer4_transform (x0 : (⟨S100000x128, .f32⟩ : BufTy).Contents (Elt Ideal)) (x1 : (⟨S4x128x128, .f32⟩ : BufTy).Contents (Elt Ideal))
    (x2 : (⟨S4x128, .f32⟩ : BufTy).Contents (Elt Ideal)) (x7 : (⟨S2x600000, .i32⟩ : BufTy).Contents (Elt Ideal)) :
    val_main_v96 (F := Ideal) x0 x1 x2 x7
      = mm (M := 100000) (K := 128) (N := 128) (val_main_v93 (F := Ideal) x0 x1 x2 x7) (val_main_v95 (F := Ideal) x1) := by
  unfold val_main_v96
  exact host_mm _ _ _

/-- Layer 4's clamp: the aggregated features with the bias row added to every row, clamped at zero. -/
theorem layer4_clamp (x0 : (⟨S100000x128, .f32⟩ : BufTy).Contents (Elt Ideal)) (x1 : (⟨S4x128x128, .f32⟩ : BufTy).Contents (Elt Ideal))
    (x2 : (⟨S4x128, .f32⟩ : BufTy).Contents (Elt Ideal)) (x7 : (⟨S2x600000, .i32⟩ : BufTy).Contents (Elt Ideal))
    (hc : (⟨1, ![128]⟩ : Shape).ShapeCasts ⟨2, ![1, 128]⟩) :
    val_main_v114 (F := Ideal) x0 x1 x2 x7
      = biasRelu (M := 100000) (N := 128) (val_main_v108 (F := Ideal) x0 x1 x2 x7)
          (shapeCast ⟨2, ![1, 128]⟩ (val_main_v110 (F := Ideal) x2) hc) := by
  unfold val_main_v114 val_main_v113 val_main_v112 val_main_v111 val_main_call4_v0 val_main_call4_cst
  exact host_biasRelu _ _ _ _ _ hc

/-- The last operations: the pooled sums divided by the pooled counts (at least one), through the two affine maps
    with the clamp at zero between them. -/
theorem head_eq (x0 : (⟨S100000x128, .f32⟩ : BufTy).Contents (Elt Ideal)) (x1 : (⟨S4x128x128, .f32⟩ : BufTy).Contents (Elt Ideal))
    (x2 : (⟨S4x128, .f32⟩ : BufTy).Contents (Elt Ideal)) (x7 : (⟨S2x600000, .i32⟩ : BufTy).Contents (Elt Ideal))
    (x3 : (⟨S128x256, .f32⟩ : BufTy).Contents (Elt Ideal)) (x4 : (⟨S256, .f32⟩ : BufTy).Contents (Elt Ideal))
    (x5 : (⟨S256x1, .f32⟩ : BufTy).Contents (Elt Ideal)) (x6 : (⟨S1, .f32⟩ : BufTy).Contents (Elt Ideal))
    (x8 : (⟨S100000, .i32⟩ : BufTy).Contents (Elt Ideal))
    (hcc : (⟨1, ![2000]⟩ : Shape).ShapeCasts ⟨2, ![2000, 1]⟩) (hc1 : (⟨1, ![256]⟩ : Shape).ShapeCasts ⟨2, ![1, 256]⟩)
    (hc2 : (⟨1, ![1]⟩ : Shape).ShapeCasts ⟨2, ![1, 1]⟩) :
    val_main_v135 (F := Ideal) x0 x1 x2 x3 x4 x5 x6 x7 x8
      = head (G := 2000) (D := 128) (H := 256) (O := 1) (val_main_v117 (F := Ideal) x0 x1 x2 x7 x8)
          (shapeCast ⟨2, ![2000, 1]⟩ (val_main_v121 (F := Ideal) x8) hcc) x3 (shapeCast ⟨2, ![1, 256]⟩ x4 hc1) x5
          (shapeCast ⟨2, ![1, 1]⟩ x6 hc2) := by
  unfold val_main_v135 val_main_v134 val_main_v133 val_main_v132 val_main_v131 val_main_call5_v0 val_main_call5_cst
    val_main_v130 val_main_v129 val_main_v128 val_main_v127 val_main_v126 val_main_v125 val_main_v124 val_main_v123
    val_main_v122 val_main_cst_21
  generalize val_main_v117 (F := Ideal) x0 x1 x2 x7 x8 = S
  generalize val_main_v121 (F := Ideal) x8 = cnt
  funext j
  obtain ⟨p, q, rfl⟩ : ∃ (p : Fin 2000) (q : Fin 1), j = ix2 p q := ⟨j 0, j 1, eq_ix2 j⟩
  unfold head
  rw [addRow_apply, mm_apply]
  show (_ : EReal) + broadcastInDim S2000x1 ![0, 1] _ (broadcastInDim S1x1 ![1] _ x6) (ix2 p q) = _
  rw [bcastRow_apply, shapeCast_a_1a_apply]
  refine congrArg (· + x6 (ix1 q)) ?_
  refine (PlainDot.dotGeneral_apply _ none .single _ _ p q).trans ?_
  refine Finset.sum_congr rfl fun k _ => ?_
  refine congrArg (· * x5 (ix2 k q)) ?_
  rw [biasRelu_apply, mm_apply]
  show max ((_ : EReal) + broadcastInDim S2000x256 ![0, 1] _ (broadcastInDim S1x256 ![1] _ x4) (ix2 p k))
    (broadcastInDim S2000x256 ![] _ (constant (F := Ideal) S_ .f32 0x00000000#32) (ix2 p k)) = _
  rw [bcastRow_apply, bcastScalar_apply, shapeCast_a_1a_apply]
  refine congrArg (fun z => max (z + x4 (ix1 k)) zeroWord) ?_
  refine (PlainDot.dotGeneral_apply _ none .single _ _ p k).trans ?_
  refine Finset.sum_congr rfl fun l _ => ?_
  refine congrArg (· * x3 (ix2 l k)) ?_
  rw [meanRows_apply]
  show Ideal.div (S (ix2 p l)) (broadcastInDim S2000x128 ![0, 1] _ (broadcastInDim S2000x1 ![0] _
    (maximumf cnt (broadcastInDim S2000 ![] _ (constant (F := Ideal) S_ .f32 0x3F800000#32)))) (ix2 p l)) = _
  rw [bcastCol_apply, Column.shapeCast_a_a1_apply]
  show Ideal.div _ (max (cnt (ix1 p)) (broadcastInDim S2000 ![] _ (constant (F := Ideal) S_ .f32 0x3F800000#32) (ix1 p))) = _
  rw [bcastScalar_apply]
  rfl

end Cert.ReferenceIdeal.Layers

end
-- ==== Proof.StageL1.lean ====
/-
  Layer 1, boundary by boundary: each buffer the next step reads holds the reference's corresponding stage.

  The transform region's exit array is the matrix product of the layer's input with its weight matrix; the host
  stretch after it gathers the transformed rows at the edge sources, scales them by the edge weights and adds them
  up at the edge targets — the same operations, on the same index vectors and weights, as the reference's — and lays
  the layer's bias out as one row; the clamp region's exit array is the aggregate with the bias added, clamped at
  zero.
-/
import proofs.«143770_j20968030339470_1_alg».proof.Proof.StagePre
import proofs.«143770_j20968030339470_1_alg».proof.Proof.ArgsPre
import proofs.«143770_j20968030339470_1_alg».proof.Proof.Keep
import proofs.«143770_j20968030339470_1_alg».proof.Proof.Region0
import proofs.«143770_j20968030339470_1_alg».proof.Proof.Region1
import proofs.«143770_j20968030339470_1_alg».proof.Proof.RefDense
import proofs.«143770_j20968030339470_1_alg».proof.Proof.Dense

set_option maxRecDepth 16384
set_option quotPrecheck false

noncomputable section

namespace Cert.KernelIdeal.StageL1

open Cert.KernelIdeal Cert.KernelIdeal.Gen Cert.ReferenceIdeal.ReadP Cert.Dense
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)

/-- The transformed features: the layer's input times its weight matrix. -/
theorem transformed : W4 m ρ c (Proc.devRef .tc main_v33) = val_main_v33 (F := Ideal) a0 a1 := by
  rw [Cert.ReferenceIdeal.Layers.layer1_transform]
  refine (W4_arr m ρ c 2).trans ((Region0.exit_eq (V3 m ρ) c).trans ?_)
  show mm (M := 100000) (K := 128) (N := 128) (W3 m ρ c (Proc.devRef .tc main_arg0)) (W3 m ρ c (Proc.devRef .tc main_v32)) = _
  rw [ArgsPre.w3_arg m ρ c main_arg0 (by decide), StagePre.w3_v32 m ρ c]

set_option maxHeartbeats 2000000 in
/-- The aggregate: the transformed rows gathered at the sources, scaled by the edge weights, summed at the targets. -/
theorem aggregated : W5 m ρ c (Proc.devRef .tc main_v45) = val_main_v45 (F := Ideal) a0 a1 a7 := by
  have hh := transformed m ρ c
  have h3 := (Keep.to4 m ρ c main_v3 (by decide)).trans (StagePre.w3_v3 m ρ c)
  have h6 := (Keep.to4 m ρ c main_v6 (by decide)).trans (StagePre.w3_v6 m ρ c)
  have h30 := (Keep.to4 m ρ c main_v30 (by decide)).trans (StagePre.w3_v30 m ρ c)
  show StableHlo.after hostOps1 (W4 m ρ c) (Proc.devRef .tc main_v45) = _
  generalize W4 m ρ c = V at hh h3 h6 h30 ⊢
  after_results_simp
  rw [hh, h3, h6, h30]
  unfold val_main_v45 val_main_v44 val_main_v43 val_main_cst_8 val_main_v42 val_main_v41 val_main_v40 val_main_v39 val_main_v38 val_main_v37 val_main_v36 val_main_c_7 val_main_v35 val_main_v34 val_main_c_6
  generalize val_main_v33 (F := Ideal) a0 a1 = yh
  generalize val_main_v3 (F := Ideal) a7 = y3
  generalize val_main_v6 (F := Ideal) a7 = y6
  generalize val_main_v30 (F := Ideal) a7 = y30
  rfl

/-- The layer's bias, laid out as one row. -/
theorem biasRow : W5 m ρ c (Proc.devRef .tc main_v48)
    = shapeCast ⟨2, ![1, 128]⟩ (val_main_v47 (F := Ideal) a2) Gen.shapeCasts_S128_S1x128 := by
  have h2 := (Keep.to4 m ρ c main_arg2 (by decide)).trans (ArgsPre.w3_arg m ρ c main_arg2 (by decide))
  show StableHlo.after hostOps1 (W4 m ρ c) (Proc.devRef .tc main_v48) = _
  generalize W4 m ρ c = V at h2 ⊢
  after_results_simp
  rw [h2]
  unfold val_main_v47 val_main_v46
  rfl

/-- The layer's output: the aggregate with the bias added to every row, clamped at zero. -/
theorem clamped : W6 m ρ c (Proc.devRef .tc main_v49) = val_main_v51 (F := Ideal) a0 a1 a2 a7 := by
  rw [Cert.ReferenceIdeal.Layers.layer1_clamp a0 a1 a2 a7 Gen.shapeCasts_S128_S1x128]
  refine (W6_arr m ρ c 2).trans ((Region1.exit_eq (V5 m ρ) c).trans ?_)
  show biasRelu (M := 100000) (N := 128) (W5 m ρ c (Proc.devRef .tc main_v45)) (W5 m ρ c (Proc.devRef .tc main_v48)) = _
  rw [aggregated m ρ c, biasRow m ρ c]

end Cert.KernelIdeal.StageL1

end
-- ==== Proof.Region2.lean ====
/-
  Region 2: a layer's dense transform, as one function of the arrays the region finds.

  The grid has 20 points; point t takes rows 5000·t … 5000·t + 4999 of the node features and the whole 128 × 128
  weight matrix, and writes back the same rows of the product. The row blocks tile the array, so after the last
  point the output array is the matrix product of the two input arrays as the region found them.
-/
import proofs.«143770_j20968030339470_1_alg».proof.Proof.Gen.KernelIdeal.Frame
import proofs.«143770_j20968030339470_1_alg».proof.Proof.PayDense

set_option maxRecDepth 16384

noncomputable section

namespace Cert.KernelIdeal.Region2

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature rows and the output rows move with the point, the
    weight matrix stays. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block at point `t` is rows `5000 t …` of the feature array. -/
theorem rows_apply (c : Dev nD) (t : Fin cfg2.N) (p : Fin 5000) (k : Fin 128) (i : S100000x128.Idx)
    (h0 : (i 0).val = t.val * 5000 + p.val) (h1 : (i 1).val = k.val) :
    (iblk2 V c 0 t : Vec Ideal S5000x128 .f32) (ix2 p k) = (V c main_v49 : S100000x128.Idx → EReal) i := by
  obtain ⟨e00, e01, -⟩ := idx t
  unfold iblk2
  rw [View.read_apply]
  show V c main_v49 _ = V c main_v49 _
  congr 1
  funext a
  apply Fin.ext
  match a with
  | ⟨0, _⟩ => show win2_0.index t 0 * 5000 + 1 * p.val = (i 0).val; rw [e00, h0]; omega
  | ⟨1, _⟩ => show win2_0.index t 1 * 128 + 1 * k.val = (i 1).val; rw [e01, h1]; omega

/-- The weight block at every point is the whole weight matrix. -/
theorem weights_apply (c : Dev nD) (t : Fin cfg2.N) (k : Fin 128) (q : Fin 128) :
    (iblk2 V c 1 t : Vec Ideal S128x128 .f32) (ix2 k q) = (V c main_v51 : S128x128.Idx → EReal) (ix2 k q) := by
  obtain ⟨-, -, e10, e11, -⟩ := idx t
  unfold iblk2
  rw [View.read_apply]
  show V c main_v51 _ = V c main_v51 _
  congr 1
  funext a
  apply Fin.ext
  match a with
  | ⟨0, _⟩ => show win2_1.index t 0 * 128 + 1 * k.val = k.val; rw [e10]; omega
  | ⟨1, _⟩ => show win2_1.index t 1 * 128 + 1 * q.val = q.val; rw [e11]; omega

set_option maxHeartbeats 1000000 in
/-- What point `t` writes back is block `t` of the product of the two arrays. -/
theorem flushed (c : Dev nD) (t : Fin cfg2.N) :
    (dat2 V c).flushed 2 t = ((cfg2.win 2).blk t).view.read (Elt Ideal)
      (mm (M := 100000) (K := 128) (N := 128) (V c main_v49) (V c main_v51)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  rw [Pay.transform2]
  obtain ⟨-, -, -, -, e20, e21⟩ := idx t
  funext j
  obtain ⟨p, q, rfl⟩ : ∃ (p : Fin 5000) (q : Fin 128), j = ix2 p q := ⟨j 0, j 1, eq_ix2 j⟩
  rw [View.read_apply]
  show mm (M := 5000) (K := 128) (N := 128) (iblk2 V c 0 t) (iblk2 V c 1 t) (ix2 p q) = _
  rw [mm_apply]
  unfold mm
  refine Finset.sum_congr rfl fun k _ => ?_
  rw [weights_apply V c t k q]
  rw [rows_apply V c t p k (ix2 ((((cfg2.win 2).blk t).view.emb (ix2 p q)) 0) k)
    (by show win2_2.index t 0 * 5000 + 1 * p.val = t.val * 5000 + p.val; rw [e20]; omega) rfl]
  congr 2
  funext a
  apply Fin.ext
  match a with
  | ⟨0, _⟩ => rfl
  | ⟨1, _⟩ => show q.val = win2_2.index t 1 * 128 + 1 * q.val; rw [e21]; omega

/-- Every row of the output array lies in the block of the point `row / 5000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, e20, e21⟩ := idx ⟨(i 0).val / 5000, ht⟩
  refine ⟨⟨(i 0).val / 5000, ht⟩, flush2_2 _, ?_⟩
  show i ∈ ((View.whole main_v52).slice (win2_2.rect ⟨(i 0).val / 5000, ht⟩)).set
  rw [View.set_slice_whole, Rect.mem_set_unit]
  intro a
  match a with
  | ⟨0, _⟩ =>
    show win2_2.index ⟨(i 0).val / 5000, ht⟩ 0 * 5000 ≤ (i 0).val ∧ (i 0).val < win2_2.index ⟨(i 0).val / 5000, ht⟩ 0 * 5000 + 5000
    rw [e20]; show (i 0).val / 5000 * 5000 ≤ (i 0).val ∧ (i 0).val < (i 0).val / 5000 * 5000 + 5000; omega
  | ⟨1, _⟩ =>
    show win2_2.index ⟨(i 0).val / 5000, ht⟩ 1 * 128 ≤ (i 1).val ∧ (i 1).val < win2_2.index ⟨(i 0).val / 5000, ht⟩ 1 * 128 + 128
    rw [e21]; omega

/-- THE REGION'S EXIT: the output array is the product of the two input arrays as the region found them. -/
theorem exit_eq (c : Dev nD) :
    (dat2 V c).arrAt 2 cfg2.N = mm (M := 100000) (K := 128) (N := 128) (V c main_v49) (V c main_v51) :=
  (dat2 V c).arrAt_eq_of_cover 2 _ (fun t _ => flushed V c t) cover

end Cert.KernelIdeal.Region2

end
-- ==== Proof.Region3.lean ====
/-
  Region 3: a layer's bias and clamp, as one function of the arrays the region finds.

  The grid has 20 points; point t takes rows 5000·t … 5000·t + 4999 of the aggregated features and the one bias
  row, and writes back the same rows with the bias added and the clamp at zero applied. The row blocks tile the
  array, so after the last point the output array is that function of the two input arrays as the region found them.
-/
import proofs.«143770_j20968030339470_1_alg».proof.Proof.Gen.KernelIdeal.Frame
import proofs.«143770_j20968030339470_1_alg».proof.Proof.PayDense

set_option maxRecDepth 16384

noncomputable section

namespace Cert.KernelIdeal.Region3

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature rows and the output rows move with the point, the
    bias row stays. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The feature block at point `t` is rows `5000 t …` of the feature array. -/
theorem rows_apply (c : Dev nD) (t : Fin cfg3.N) (p : Fin 5000) (k : Fin 128) (i : S100000x128.Idx)
    (h0 : (i 0).val = t.val * 5000 + p.val) (h1 : (i 1).val = k.val) :
    (iblk3 V c 0 t : Vec Ideal S5000x128 .f32) (ix2 p k) = (V c main_v64 : S100000x128.Idx → EReal) i := by
  obtain ⟨e00, e01, -⟩ := idx t
  unfold iblk3
  rw [View.read_apply]
  show V c main_v64 _ = V c main_v64 _
  congr 1
  funext a
  apply Fin.ext
  match a with
  | ⟨0, _⟩ => show win3_0.index t 0 * 5000 + 1 * p.val = (i 0).val; rw [e00, h0]; omega
  | ⟨1, _⟩ => show win3_0.index t 1 * 128 + 1 * k.val = (i 1).val; rw [e01, h1]; omega

/-- The bias block at every point is the whole bias row. -/
theorem bias_apply (c : Dev nD) (t : Fin cfg3.N) (u : Fin 1) (q : Fin 128) :
    (iblk3 V c 1 t : Vec Ideal S1x128 .f32) (ix2 u q) = (V c main_v67 : S1x128.Idx → EReal) (ix2 u q) := by
  obtain ⟨-, -, e10, e11, -⟩ := idx t
  unfold iblk3
  rw [View.read_apply]
  show V c main_v67 _ = V c main_v67 _
  congr 1
  funext a
  apply Fin.ext
  match a with
  | ⟨0, _⟩ => show win3_1.index t 0 * 1 + 1 * u.val = u.val; rw [e10]; omega
  | ⟨1, _⟩ => show win3_1.index t 1 * 128 + 1 * q.val = q.val; rw [e11]; omega

set_option maxHeartbeats 1000000 in
/-- What point `t` writes back is block `t` of the biased, clamped array. -/
theorem flushed (c : Dev nD) (t : Fin cfg3.N) :
    (dat3 V c).flushed 2 t = ((cfg3.win 2).blk t).view.read (Elt Ideal)
      (biasRelu (M := 100000) (N := 128) (V c main_v64) (V c main_v67)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  rw [Pay.bias3]
  obtain ⟨-, -, -, -, e20, e21⟩ := idx t
  funext j
  obtain ⟨p, q, rfl⟩ : ∃ (p : Fin 5000) (q : Fin 128), j = ix2 p q := ⟨j 0, j 1, eq_ix2 j⟩
  rw [View.read_apply]
  show biasRelu (M := 5000) (N := 128) (iblk3 V c 0 t) (iblk3 V c 1 t) (ix2 p q) = _
  rw [biasRelu_apply]
  unfold biasRelu
  rw [bias_apply V c t 0 q]
  rw [rows_apply V c t p q (((cfg3.win 2).blk t).view.emb (ix2 p q))
    (by show win3_2.index t 0 * 5000 + 1 * p.val = t.val * 5000 + p.val; rw [e20]; omega)
    (by show win3_2.index t 1 * 128 + 1 * q.val = q.val; rw [e21]; omega)]
  congr 3
  funext a
  apply Fin.ext
  match a with
  | ⟨0, _⟩ => rfl
  | ⟨1, _⟩ => show q.val = win3_2.index t 1 * 128 + 1 * q.val; rw [e21]; omega

/-- Every row of the output array lies in the block of the point `row / 5000`. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨-, -, -, -, e20, e21⟩ := idx ⟨(i 0).val / 5000, ht⟩
  refine ⟨⟨(i 0).val / 5000, ht⟩, flush3_2 _, ?_⟩
  show i ∈ ((View.whole main_v68).slice (win3_2.rect ⟨(i 0).val / 5000, ht⟩)).set
  rw [View.set_slice_whole, Rect.mem_set_unit]
  intro a
  match a with
  | ⟨0, _⟩ =>
    show win3_2.index ⟨(i 0).val / 5000, ht⟩ 0 * 5000 ≤ (i 0).val ∧ (i 0).val < win3_2.index ⟨(i 0).val / 5000, ht⟩ 0 * 5000 + 5000
    rw [e20]; show (i 0).val / 5000 * 5000 ≤ (i 0).val ∧ (i 0).val < (i 0).val / 5000 * 5000 + 5000; omega
  | ⟨1, _⟩ =>
    show win3_2.index ⟨(i 0).val / 5000, ht⟩ 1 * 128 ≤ (i 1).val ∧ (i 1).val < win3_2.index ⟨(i 0).val / 5000, ht⟩ 1 * 128 + 128
    rw [e21]; omega

/-- THE REGION'S EXIT: the output array is the biased, clamped input array, both as the region found them. -/
theorem exit_eq (c : Dev nD) :
    (dat3 V c).arrAt 2 cfg3.N = biasRelu (M := 100000) (N := 128) (V c main_v64) (V c main_v67) :=
  (dat3 V c).arrAt_eq_of_cover 2 _ (fun t _ => flushed V c t) cover

end Cert.KernelIdeal.Region3

end
-- ==== Proof.StageL2.lean ====
/-
  Layer 2, boundary by boundary: each buffer the next step reads holds the reference's corresponding stage.

  The transform region's exit array is the matrix product of the layer's input with its weight matrix; the host
  stretch after it gathers the transformed rows at the edge sources, scales them by the edge weights and adds them
  up at the edge targets — the same operations, on the same index vectors and weights, as the reference's — and lays
  the layer's bias out as one row; the clamp region's exit array is the aggregate with the bias added, clamped at
  zero.
-/
import proofs.«143770_j20968030339470_1_alg».proof.Proof.StageL1
import proofs.«143770_j20968030339470_1_alg».proof.Proof.StagePre
import proofs.«143770_j20968030339470_1_alg».proof.Proof.ArgsPre
import proofs.«143770_j20968030339470_1_alg».proof.Proof.Keep
import proofs.«143770_j20968030339470_1_alg».proof.Proof.Region2
import proofs.«143770_j20968030339470_1_alg».proof.Proof.Region3
import proofs.«143770_j20968030339470_1_alg».proof.Proof.RefDense
import proofs.«143770_j20968030339470_1_alg».proof.Proof.Dense

set_option maxRecDepth 16384
set_option quotPrecheck false

noncomputable section

namespace Cert.KernelIdeal.StageL2

open Cert.KernelIdeal Cert.KernelIdeal.Gen Cert.ReferenceIdeal.ReadP Cert.Dense
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)

/-- The layer's weight matrix, sliced out of the stacked weights. -/
theorem weights : W7 m ρ c (Proc.devRef .tc main_v51) = val_main_v53 (F := Ideal) a1 := by
  have h1 := (Keep.to6 m ρ c main_arg1 (by decide)).trans (ArgsPre.w3_arg m ρ c main_arg1 (by decide))
  show StableHlo.after hostOps2 (W6 m ρ c) (Proc.devRef .tc main_v51) = _
  generalize W6 m ρ c = V at h1 ⊢
  after_results
  rw [h1]
  unfold val_main_v53 val_main_v52
  rfl

/-- The layer's input: the previous layer's output, untouched by the slicing. -/
theorem features : W7 m ρ c (Proc.devRef .tc main_v49) = val_main_v51 (F := Ideal) a0 a1 a2 a7 := by
  have h := StageL1.clamped m ρ c
  show StableHlo.after hostOps2 (W6 m ρ c) (Proc.devRef .tc main_v49) = _
  generalize W6 m ρ c = V at h ⊢
  after_results
  exact h

/-- The transformed features: the layer's input times its weight matrix. -/
theorem transformed : W8 m ρ c (Proc.devRef .tc main_v52) = val_main_v54 (F := Ideal) a0 a1 a2 a7 := by
  rw [Cert.ReferenceIdeal.Layers.layer2_transform]
  refine (W8_arr m ρ c 2).trans ((Region2.exit_eq (V7 m ρ) c).trans ?_)
  show mm (M := 100000) (K := 128) (N := 128) (W7 m ρ c (Proc.devRef .tc main_v49)) (W7 m ρ c (Proc.devRef .tc main_v51)) = _
  rw [features m ρ c, weights m ρ c]

set_option maxHeartbeats 2000000 in
/-- The aggregate: the transformed rows gathered at the sources, scaled by the edge weights, summed at the targets. -/
theorem aggregated : W9 m ρ c (Proc.devRef .tc main_v64) = val_main_v66 (F := Ideal) a0 a1 a2 a7 := by
  have hh := transformed m ρ c
  have h3 := (Keep.to8 m ρ c main_v3 (by decide)).trans (StagePre.w3_v3 m ρ c)
  have h6 := (Keep.to8 m ρ c main_v6 (by decide)).trans (StagePre.w3_v6 m ρ c)
  have h30 := (Keep.to8 m ρ c main_v30 (by decide)).trans (StagePre.w3_v30 m ρ c)
  show StableHlo.after hostOps3 (W8 m ρ c) (Proc.devRef .tc main_v64) = _
  generalize W8 m ρ c = V at hh h3 h6 h30 ⊢
  after_results_simp
  rw [hh, h3, h6, h30]
  unfold val_main_v66 val_main_v65 val_main_v64 val_main_cst_11 val_main_v63 val_main_v62 val_main_v61 val_main_v60 val_main_v59 val_main_v58 val_main_v57 val_main_c_10 val_main_v56 val_main_v55 val_main_c_9
  generalize val_main_v54 (F := Ideal) a0 a1 a2 a7 = yh
  generalize val_main_v3 (F := Ideal) a7 = y3
  generalize val_main_v6 (F := Ideal) a7 = y6
  generalize val_main_v30 (F := Ideal) a7 = y30
  rfl

/-- The layer's bias, laid out as one row. -/
theorem biasRow : W9 m ρ c (Proc.devRef .tc main_v67)
    = shapeCast ⟨2, ![1, 128]⟩ (val_main_v68 (F := Ideal) a2) Gen.shapeCasts_S128_S1x128 := by
  have h2 := (Keep.to8 m ρ c main_arg2 (by decide)).trans (ArgsPre.w3_arg m ρ c main_arg2 (by decide))
  show StableHlo.after hostOps3 (W8 m ρ c) (Proc.devRef .tc main_v67) = _
  generalize W8 m ρ c = V at h2 ⊢
  after_results_simp
  rw [h2]
  unfold val_main_v68 val_main_v67
  rfl

/-- The layer's output: the aggregate with the bias added to every row, clamped at zero. -/
theorem clamped : W10 m ρ c (Proc.devRef .tc main_v68) = val_main_v72 (F := Ideal) a0 a1 a2 a7 := by
  rw [Cert.ReferenceIdeal.Layers.layer2_clamp a0 a1 a2 a7 Gen.shapeCasts_S128_S1x128]
  refine (W10_arr m ρ c 2).trans ((Region3.exit_eq (V9 m ρ) c).trans ?_)
  show biasRelu (M := 100000) (N := 128) (W9 m ρ c (Proc.devRef .tc main_v64)) (W9 m ρ c (Proc.devRef .tc main_v67)) = _
  rw [aggregated m ρ c, biasRow m ρ c]

end Cert.KernelIdeal.StageL2

end
-- ==== Proof.Region4.lean ====
/-
  Region 4: a layer's dense transform, as one function of the arrays the region finds.

  The grid has 20 points; point t takes rows 5000·t … 5000·t + 4999 of the node features and the whole 128 × 128
  weight matrix, and writes back the same rows of the product. The row blocks tile the array, so after the last
  point the output array is the matrix product of the two input arrays as the region found them.
-/
import proofs.«143770_j20968030339470_1_alg».proof.Proof.Gen.KernelIdeal.Frame
import proofs.«143770_j20968030339470_1_alg».proof.Proof.PayDense

set_option maxRecDepth 16384

noncomputable section

namespace Cert.KernelIdeal.Region4

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature rows and the output rows move with the point, the
    weight matrix stays. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature block at point `t` is rows `5000 t …` of the feature array. -/
theorem rows_apply (c : Dev nD) (t : Fin cfg4.N) (p : Fin 5000) (k : Fin 128) (i : S100000x128.Idx)
    (h0 : (i 0).val = t.val * 5000 + p.val) (h1 : (i 1).val = k.val) :
    (iblk4 V c 0 t : Vec Ideal S5000x128 .f32) (ix2 p k) = (V c main_v68 : S100000x128.Idx → EReal) i := by
  obtain ⟨e00, e01, -⟩ := idx t
  unfold iblk4
  rw [View.read_apply]
  show V c main_v68 _ = V c main_v68 _
  congr 1
  funext a
  apply Fin.ext
  match a with
  | ⟨0, _⟩ => show win4_0.index t 0 * 5000 + 1 * p.val = (i 0).val; rw [e00, h0]; omega
  | ⟨1, _⟩ => show win4_0.index t 1 * 128 + 1 * k.val = (i 1).val; rw [e01, h1]; omega

/-- The weight block at every point is the whole weight matrix. -/
theorem weights_apply (c : Dev nD) (t : Fin cfg4.N) (k : Fin 128) (q : Fin 128) :
    (iblk4 V c 1 t : Vec Ideal S128x128 .f32) (ix2 k q) = (V c main_v70 : S128x128.Idx → EReal) (ix2 k q) := by
  obtain ⟨-, -, e10, e11, -⟩ := idx t
  unfold iblk4
  rw [View.read_apply]
  show V c main_v70 _ = V c main_v70 _
  congr 1
  funext a
  apply Fin.ext
  match a with
  | ⟨0, _⟩ => show win4_1.index t 0 * 128 + 1 * k.val = k.val; rw [e10]; omega
  | ⟨1, _⟩ => show win4_1.index t 1 * 128 + 1 * q.val = q.val; rw [e11]; omega

set_option maxHeartbeats 1000000 in
/-- What point `t` writes back is block `t` of the product of the two arrays. -/
theorem flushed (c : Dev nD) (t : Fin cfg4.N) :
    (dat4 V c).flushed 2 t = ((cfg4.win 2).blk t).view.read (Elt Ideal)
      (mm (M := 100000) (K := 128) (N := 128) (V c main_v68) (V c main_v70)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  rw [Pay.transform4]
  obtain ⟨-, -, -, -, e20, e21⟩ := idx t
  funext j
  obtain ⟨p, q, rfl⟩ : ∃ (p : Fin 5000) (q : Fin 128), j = ix2 p q := ⟨j 0, j 1, eq_ix2 j⟩
  rw [View.read_apply]
  show mm (M := 5000) (K := 128) (N := 128) (iblk4 V c 0 t) (iblk4 V c 1 t) (ix2 p q) = _
  rw [mm_apply]
  unfold mm
  refine Finset.sum_congr rfl fun k _ => ?_
  rw [weights_apply V c t k q]
  rw [rows_apply V c t p k (ix2 ((((cfg4.win 2).blk t).view.emb (ix2 p q)) 0) k)
    (by show win4_2.index t 0 * 5000 + 1 * p.val = t.val * 5000 + p.val; rw [e20]; omega) rfl]
  congr 2
  funext a
  apply Fin.ext
  match a with
  | ⟨0, _⟩ => rfl
  | ⟨1, _⟩ => show q.val = win4_2.index t 1 * 128 + 1 * q.val; rw [e21]; omega

/-- Every row of the output array lies in the block of the point `row / 5000`. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  have ht : (i 0).val / 5000 < cfg4.N := by rw [hN]; omega
  obtain ⟨-, -, -, -, e20, e21⟩ := idx ⟨(i 0).val / 5000, ht⟩
  refine ⟨⟨(i 0).val / 5000, ht⟩, flush4_2 _, ?_⟩
  show i ∈ ((View.whole main_v71).slice (win4_2.rect ⟨(i 0).val / 5000, ht⟩)).set
  rw [View.set_slice_whole, Rect.mem_set_unit]
  intro a
  match a with
  | ⟨0, _⟩ =>
    show win4_2.index ⟨(i 0).val / 5000, ht⟩ 0 * 5000 ≤ (i 0).val ∧ (i 0).val < win4_2.index ⟨(i 0).val / 5000, ht⟩ 0 * 5000 + 5000
    rw [e20]; show (i 0).val / 5000 * 5000 ≤ (i 0).val ∧ (i 0).val < (i 0).val / 5000 * 5000 + 5000; omega
  | ⟨1, _⟩ =>
    show win4_2.index ⟨(i 0).val / 5000, ht⟩ 1 * 128 ≤ (i 1).val ∧ (i 1).val < win4_2.index ⟨(i 0).val / 5000, ht⟩ 1 * 128 + 128
    rw [e21]; omega

/-- THE REGION'S EXIT: the output array is the product of the two input arrays as the region found them. -/
theorem exit_eq (c : Dev nD) :
    (dat4 V c).arrAt 2 cfg4.N = mm (M := 100000) (K := 128) (N := 128) (V c main_v68) (V c main_v70) :=
  (dat4 V c).arrAt_eq_of_cover 2 _ (fun t _ => flushed V c t) cover

end Cert.KernelIdeal.Region4

end
-- ==== Proof.Region5.lean ====
/-
  Region 5: a layer's bias and clamp, as one function of the arrays the region finds.

  The grid has 20 points; point t takes rows 5000·t … 5000·t + 4999 of the aggregated features and the one bias
  row, and writes back the same rows with the bias added and the clamp at zero applied. The row blocks tile the
  array, so after the last point the output array is that function of the two input arrays as the region found them.
-/
import proofs.«143770_j20968030339470_1_alg».proof.Proof.Gen.KernelIdeal.Frame
import proofs.«143770_j20968030339470_1_alg».proof.Proof.PayDense

set_option maxRecDepth 16384

noncomputable section

namespace Cert.KernelIdeal.Region5

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature rows and the output rows move with the point, the
    bias row stays. -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The feature block at point `t` is rows `5000 t …` of the feature array. -/
theorem rows_apply (c : Dev nD) (t : Fin cfg5.N) (p : Fin 5000) (k : Fin 128) (i : S100000x128.Idx)
    (h0 : (i 0).val = t.val * 5000 + p.val) (h1 : (i 1).val = k.val) :
    (iblk5 V c 0 t : Vec Ideal S5000x128 .f32) (ix2 p k) = (V c main_v83 : S100000x128.Idx → EReal) i := by
  obtain ⟨e00, e01, -⟩ := idx t
  unfold iblk5
  rw [View.read_apply]
  show V c main_v83 _ = V c main_v83 _
  congr 1
  funext a
  apply Fin.ext
  match a with
  | ⟨0, _⟩ => show win5_0.index t 0 * 5000 + 1 * p.val = (i 0).val; rw [e00, h0]; omega
  | ⟨1, _⟩ => show win5_0.index t 1 * 128 + 1 * k.val = (i 1).val; rw [e01, h1]; omega

/-- The bias block at every point is the whole bias row. -/
theorem bias_apply (c : Dev nD) (t : Fin cfg5.N) (u : Fin 1) (q : Fin 128) :
    (iblk5 V c 1 t : Vec Ideal S1x128 .f32) (ix2 u q) = (V c main_v86 : S1x128.Idx → EReal) (ix2 u q) := by
  obtain ⟨-, -, e10, e11, -⟩ := idx t
  unfold iblk5
  rw [View.read_apply]
  show V c main_v86 _ = V c main_v86 _
  congr 1
  funext a
  apply Fin.ext
  match a with
  | ⟨0, _⟩ => show win5_1.index t 0 * 1 + 1 * u.val = u.val; rw [e10]; omega
  | ⟨1, _⟩ => show win5_1.index t 1 * 128 + 1 * q.val = q.val; rw [e11]; omega

set_option maxHeartbeats 1000000 in
/-- What point `t` writes back is block `t` of the biased, clamped array. -/
theorem flushed (c : Dev nD) (t : Fin cfg5.N) :
    (dat5 V c).flushed 2 t = ((cfg5.win 2).blk t).view.read (Elt Ideal)
      (biasRelu (M := 100000) (N := 128) (V c main_v83) (V c main_v86)) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  rw [Pay.bias5]
  obtain ⟨-, -, -, -, e20, e21⟩ := idx t
  funext j
  obtain ⟨p, q, rfl⟩ : ∃ (p : Fin 5000) (q : Fin 128), j = ix2 p q := ⟨j 0, j 1, eq_ix2 j⟩
  rw [View.read_apply]
  show biasRelu (M := 5000) (N := 128) (iblk5 V c 0 t) (iblk5 V c 1 t) (ix2 p q) = _
  rw [biasRelu_apply]
  unfold biasRelu
  rw [bias_apply V c t 0 q]
  rw [rows_apply V c t p q (((cfg5.win 2).blk t).view.emb (ix2 p q))
    (by show win5_2.index t 0 * 5000 + 1 * p.val = t.val * 5000 + p.val; rw [e20]; omega)
    (by show win5_2.index t 1 * 128 + 1 * q.val = q.val; rw [e21]; omega)]
  congr 3
  funext a
  apply Fin.ext
  match a with
  | ⟨0, _⟩ => rfl
  | ⟨1, _⟩ => show q.val = win5_2.index t 1 * 128 + 1 * q.val; rw [e21]; omega

/-- Every row of the output array lies in the block of the point `row / 5000`. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := N_5
  have ht : (i 0).val / 5000 < cfg5.N := by rw [hN]; omega
  obtain ⟨-, -, -, -, e20, e21⟩ := idx ⟨(i 0).val / 5000, ht⟩
  refine ⟨⟨(i 0).val / 5000, ht⟩, flush5_2 _, ?_⟩
  show i ∈ ((View.whole main_v87).slice (win5_2.rect ⟨(i 0).val / 5000, ht⟩)).set
  rw [View.set_slice_whole, Rect.mem_set_unit]
  intro a
  match a with
  | ⟨0, _⟩ =>
    show win5_2.index ⟨(i 0).val / 5000, ht⟩ 0 * 5000 ≤ (i 0).val ∧ (i 0).val < win5_2.index ⟨(i 0).val / 5000, ht⟩ 0 * 5000 + 5000
    rw [e20]; show (i 0).val / 5000 * 5000 ≤ (i 0).val ∧ (i 0).val < (i 0).val / 5000 * 5000 + 5000; omega
  | ⟨1, _⟩ =>
    show win5_2.index ⟨(i 0).val / 5000, ht⟩ 1 * 128 ≤ (i 1).val ∧ (i 1).val < win5_2.index ⟨(i 0).val / 5000, ht⟩ 1 * 128 + 128
    rw [e21]; omega

/-- THE REGION'S EXIT: the output array is the biased, clamped input array, both as the region found them. -/
theorem exit_eq (c : Dev nD) :
    (dat5 V c).arrAt 2 cfg5.N = biasRelu (M := 100000) (N := 128) (V c main_v83) (V c main_v86) :=
  (dat5 V c).arrAt_eq_of_cover 2 _ (fun t _ => flushed V c t) cover

end Cert.KernelIdeal.Region5

end
-- ==== Proof.StageL3.lean ====
/-
  Layer 3, boundary by boundary: each buffer the next step reads holds the reference's corresponding stage.

  The transform region's exit array is the matrix product of the layer's input with its weight matrix; the host
  stretch after it gathers the transformed rows at the edge sources, scales them by the edge weights and adds them
  up at the edge targets — the same operations, on the same index vectors and weights, as the reference's — and lays
  the layer's bias out as one row; the clamp region's exit array is the aggregate with the bias added, clamped at
  zero.
-/
import proofs.«143770_j20968030339470_1_alg».proof.Proof.StageL2
import proofs.«143770_j20968030339470_1_alg».proof.Proof.StagePre
import proofs.«143770_j20968030339470_1_alg».proof.Proof.ArgsPre
import proofs.«143770_j20968030339470_1_alg».proof.Proof.Keep
import proofs.«143770_j20968030339470_1_alg».proof.Proof.Region4
import proofs.«143770_j20968030339470_1_alg».proof.Proof.Region5
import proofs.«143770_j20968030339470_1_alg».proof.Proof.RefDense
import proofs.«143770_j20968030339470_1_alg».proof.Proof.Dense

set_option maxRecDepth 16384
set_option quotPrecheck false

noncomputable section

namespace Cert.KernelIdeal.StageL3

open Cert.KernelIdeal Cert.KernelIdeal.Gen Cert.ReferenceIdeal.ReadP Cert.Dense
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)

/-- The layer's weight matrix, sliced out of the stacked weights. -/
theorem weights : W11 m ρ c (Proc.devRef .tc main_v70) = val_main_v74 (F := Ideal) a1 := by
  have h1 := (Keep.to10 m ρ c main_arg1 (by decide)).trans (ArgsPre.w3_arg m ρ c main_arg1 (by decide))
  show StableHlo.after hostOps4 (W10 m ρ c) (Proc.devRef .tc main_v70) = _
  generalize W10 m ρ c = V at h1 ⊢
  after_results
  rw [h1]
  unfold val_main_v74 val_main_v73
  rfl

/-- The layer's input: the previous layer's output, untouched by the slicing. -/
theorem features : W11 m ρ c (Proc.devRef .tc main_v68) = val_main_v72 (F := Ideal) a0 a1 a2 a7 := by
  have h := StageL2.clamped m ρ c
  show StableHlo.after hostOps4 (W10 m ρ c) (Proc.devRef .tc main_v68) = _
  generalize W10 m ρ c = V at h ⊢
  after_results
  exact h

/-- The transformed features: the layer's input times its weight matrix. -/
theorem transformed : W12 m ρ c (Proc.devRef .tc main_v71) = val_main_v75 (F := Ideal) a0 a1 a2 a7 := by
  rw [Cert.ReferenceIdeal.Layers.layer3_transform]
  refine (W12_arr m ρ c 2).trans ((Region4.exit_eq (V11 m ρ) c).trans ?_)
  show mm (M := 100000) (K := 128) (N := 128) (W11 m ρ c (Proc.devRef .tc main_v68)) (W11 m ρ c (Proc.devRef .tc main_v70)) = _
  rw [features m ρ c, weights m ρ c]

set_option maxHeartbeats 2000000 in
/-- The aggregate: the transformed rows gathered at the sources, scaled by the edge weights, summed at the targets. -/
theorem aggregated : W13 m ρ c (Proc.devRef .tc main_v83) = val_main_v87 (F := Ideal) a0 a1 a2 a7 := by
  have hh := transformed m ρ c
  have h3 := (Keep.to12 m ρ c main_v3 (by decide)).trans (StagePre.w3_v3 m ρ c)
  have h6 := (Keep.to12 m ρ c main_v6 (by decide)).trans (StagePre.w3_v6 m ρ c)
  have h30 := (Keep.to12 m ρ c main_v30 (by decide)).trans (StagePre.w3_v30 m ρ c)
  show StableHlo.after hostOps5 (W12 m ρ c) (Proc.devRef .tc main_v83) = _
  generalize W12 m ρ c = V at hh h3 h6 h30 ⊢
  after_results_simp
  rw [hh, h3, h6, h30]
  unfold val_main_v87 val_main_v86 val_main_v85 val_main_cst_14 val_main_v84 val_main_v83 val_main_v82 val_main_v81 val_main_v80 val_main_v79 val_main_v78 val_main_c_13 val_main_v77 val_main_v76 val_main_c_12
  generalize val_main_v75 (F := Ideal) a0 a1 a2 a7 = yh
  generalize val_main_v3 (F := Ideal) a7 = y3
  generalize val_main_v6 (F := Ideal) a7 = y6
  generalize val_main_v30 (F := Ideal) a7 = y30
  rfl

/-- The layer's bias, laid out as one row. -/
theorem biasRow : W13 m ρ c (Proc.devRef .tc main_v86)
    = shapeCast ⟨2, ![1, 128]⟩ (val_main_v89 (F := Ideal) a2) Gen.shapeCasts_S128_S1x128 := by
  have h2 := (Keep.to12 m ρ c main_arg2 (by decide)).trans (ArgsPre.w3_arg m ρ c main_arg2 (by decide))
  show StableHlo.after hostOps5 (W12 m ρ c) (Proc.devRef .tc main_v86) = _
  generalize W12 m ρ c = V at h2 ⊢
  after_results_simp
  rw [h2]
  unfold val_main_v89 val_main_v88
  rfl

/-- The layer's output: the aggregate with the bias added to every row, clamped at zero. -/
theorem clamped : W14 m ρ c (Proc.devRef .tc main_v87) = val_main_v93 (F := Ideal) a0 a1 a2 a7 := by
  rw [Cert.ReferenceIdeal.Layers.layer3_clamp a0 a1 a2 a7 Gen.shapeCasts_S128_S1x128]
  refine (W14_arr m ρ c 2).trans ((Region5.exit_eq (V13 m ρ) c).trans ?_)
  show biasRelu (M := 100000) (N := 128) (W13 m ρ c (Proc.devRef .tc main_v83)) (W13 m ρ c (Proc.devRef .tc main_v86)) = _
  rw [aggregated m ρ c, biasRow m ρ c]

end Cert.KernelIdeal.StageL3

end
-- ==== Proof.Region6.lean ====
/-
  Region 6: a layer's dense transform, as one function of the arrays the region finds.

  The grid has 20 points; point t takes rows 5000·t … 5000·t + 4999 of the node features and the whole 128 × 128
  weight matrix, and writes back the same rows of the product. The row blocks tile the array, so after the last
  point the output array is the matrix product of the two input arrays as the region found them.
-/
import proofs.«143770_j20968030339470_1_alg».proof.Proof.Gen.KernelIdeal.Frame
import proofs.«143770_j20968030339470_1_alg».proof.Proof.PayDense

set_option maxRecDepth 16384

noncomputable section

namespace Cert.KernelIdeal.Region6

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature rows and the output rows move with the point, the
    weight matrix stays. -/
theorem idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The feature block at point `t` is rows `5000 t …` of the feature array. -/
theorem rows_apply (c : Dev nD) (t : Fin cfg6.N) (p : Fin 5000) (k : Fin 128) (i : S100000x128.Idx)
    (h0 : (i 0).val = t.val * 5000 + p.val) (h1 : (i 1).val = k.val) :
    (iblk6 V c 0 t : Vec Ideal S5000x128 .f32) (ix2 p k) = (V c main_v87 : S100000x128.Idx → EReal) i := by
  obtain ⟨e00, e01, -⟩ := idx t
  unfold iblk6
  rw [View.read_apply]
  show V c main_v87 _ = V c main_v87 _
  congr 1
  funext a
  apply Fin.ext
  match a with
  | ⟨0, _⟩ => show win6_0.index t 0 * 5000 + 1 * p.val = (i 0).val; rw [e00, h0]; omega
  | ⟨1, _⟩ => show win6_0.index t 1 * 128 + 1 * k.val = (i 1).val; rw [e01, h1]; omega

/-- The weight block at every point is the whole weight matrix. -/
theorem weights_apply (c : Dev nD) (t : Fin cfg6.N) (k : Fin 128) (q : Fin 128) :
    (iblk6 V c 1 t : Vec Ideal S128x128 .f32) (ix2 k q) = (V c main_v89 : S128x128.Idx → EReal) (ix2 k q) := by
  obtain ⟨-, -, e10, e11, -⟩ := idx t
  unfold iblk6
  rw [View.read_apply]
  show V c main_v89 _ = V c main_v89 _
  congr 1
  funext a
  apply Fin.ext
  match a with
  | ⟨0, _⟩ => show win6_1.index t 0 * 128 + 1 * k.val = k.val; rw [e10]; omega
  | ⟨1, _⟩ => show win6_1.index t 1 * 128 + 1 * q.val = q.val; rw [e11]; omega

set_option maxHeartbeats 1000000 in
/-- What point `t` writes back is block `t` of the product of the two arrays. -/
theorem flushed (c : Dev nD) (t : Fin cfg6.N) :
    (dat6 V c).flushed 2 t = ((cfg6.win 2).blk t).view.read (Elt Ideal)
      (mm (M := 100000) (K := 128) (N := 128) (V c main_v87) (V c main_v89)) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x128) hz]
  rw [Pay.transform6]
  obtain ⟨-, -, -, -, e20, e21⟩ := idx t
  funext j
  obtain ⟨p, q, rfl⟩ : ∃ (p : Fin 5000) (q : Fin 128), j = ix2 p q := ⟨j 0, j 1, eq_ix2 j⟩
  rw [View.read_apply]
  show mm (M := 5000) (K := 128) (N := 128) (iblk6 V c 0 t) (iblk6 V c 1 t) (ix2 p q) = _
  rw [mm_apply]
  unfold mm
  refine Finset.sum_congr rfl fun k _ => ?_
  rw [weights_apply V c t k q]
  rw [rows_apply V c t p k (ix2 ((((cfg6.win 2).blk t).view.emb (ix2 p q)) 0) k)
    (by show win6_2.index t 0 * 5000 + 1 * p.val = t.val * 5000 + p.val; rw [e20]; omega) rfl]
  congr 2
  funext a
  apply Fin.ext
  match a with
  | ⟨0, _⟩ => rfl
  | ⟨1, _⟩ => show q.val = win6_2.index t 1 * 128 + 1 * q.val; rw [e21]; omega

/-- Every row of the output array lies in the block of the point `row / 5000`. -/
theorem cover (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  have ht : (i 0).val / 5000 < cfg6.N := by rw [hN]; omega
  obtain ⟨-, -, -, -, e20, e21⟩ := idx ⟨(i 0).val / 5000, ht⟩
  refine ⟨⟨(i 0).val / 5000, ht⟩, flush6_2 _, ?_⟩
  show i ∈ ((View.whole main_v90).slice (win6_2.rect ⟨(i 0).val / 5000, ht⟩)).set
  rw [View.set_slice_whole, Rect.mem_set_unit]
  intro a
  match a with
  | ⟨0, _⟩ =>
    show win6_2.index ⟨(i 0).val / 5000, ht⟩ 0 * 5000 ≤ (i 0).val ∧ (i 0).val < win6_2.index ⟨(i 0).val / 5000, ht⟩ 0 * 5000 + 5000
    rw [e20]; show (i 0).val / 5000 * 5000 ≤ (i 0).val ∧ (i 0).val < (i 0).val / 5000 * 5000 + 5000; omega
  | ⟨1, _⟩ =>
    show win6_2.index ⟨(i 0).val / 5000, ht⟩ 1 * 128 ≤ (i 1).val ∧ (i 1).val < win6_2.index ⟨(i 0).val / 5000, ht⟩ 1 * 128 + 128
    rw [e21]; omega

/-- THE REGION'S EXIT: the output array is the product of the two input arrays as the region found them. -/
theorem exit_eq (c : Dev nD) :
    (dat6 V c).arrAt 2 cfg6.N = mm (M := 100000) (K := 128) (N := 128) (V c main_v87) (V c main_v89) :=
  (dat6 V c).arrAt_eq_of_cover 2 _ (fun t _ => flushed V c t) cover

end Cert.KernelIdeal.Region6

end
-- ==== Proof.Region7.lean ====
/-
  Region 7: a layer's bias and clamp, as one function of the arrays the region finds.

  The grid has 20 points; point t takes rows 5000·t … 5000·t + 4999 of the aggregated features and the one bias
  row, and writes back the same rows with the bias added and the clamp at zero applied. The row blocks tile the
  array, so after the last point the output array is that function of the two input arrays as the region found them.
-/
import proofs.«143770_j20968030339470_1_alg».proof.Proof.Gen.KernelIdeal.Frame
import proofs.«143770_j20968030339470_1_alg».proof.Proof.PayDense

set_option maxRecDepth 16384

noncomputable section

namespace Cert.KernelIdeal.Region7

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature rows and the output rows move with the point, the
    bias row stays. -/
theorem idx : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The feature block at point `t` is rows `5000 t …` of the feature array. -/
theorem rows_apply (c : Dev nD) (t : Fin cfg7.N) (p : Fin 5000) (k : Fin 128) (i : S100000x128.Idx)
    (h0 : (i 0).val = t.val * 5000 + p.val) (h1 : (i 1).val = k.val) :
    (iblk7 V c 0 t : Vec Ideal S5000x128 .f32) (ix2 p k) = (V c main_v102 : S100000x128.Idx → EReal) i := by
  obtain ⟨e00, e01, -⟩ := idx t
  unfold iblk7
  rw [View.read_apply]
  show V c main_v102 _ = V c main_v102 _
  congr 1
  funext a
  apply Fin.ext
  match a with
  | ⟨0, _⟩ => show win7_0.index t 0 * 5000 + 1 * p.val = (i 0).val; rw [e00, h0]; omega
  | ⟨1, _⟩ => show win7_0.index t 1 * 128 + 1 * k.val = (i 1).val; rw [e01, h1]; omega

/-- The bias block at every point is the whole bias row. -/
theorem bias_apply (c : Dev nD) (t : Fin cfg7.N) (u : Fin 1) (q : Fin 128) :
    (iblk7 V c 1 t : Vec Ideal S1x128 .f32) (ix2 u q) = (V c main_v105 : S1x128.Idx → EReal) (ix2 u q) := by
  obtain ⟨-, -, e10, e11, -⟩ := idx t
  unfold iblk7
  rw [View.read_apply]
  show V c main_v105 _ = V c main_v105 _
  congr 1
  funext a
  apply Fin.ext
  match a with
  | ⟨0, _⟩ => show win7_1.index t 0 * 1 + 1 * u.val = u.val; rw [e10]; omega
  | ⟨1, _⟩ => show win7_1.index t 1 * 128 + 1 * q.val = q.val; rw [e11]; omega

set_option maxHeartbeats 1000000 in
/-- What point `t` writes back is block `t` of the biased, clamped array. -/
theorem flushed (c : Dev nD) (t : Fin cfg7.N) :
    (dat7 V c).flushed 2 t = ((cfg7.win 2).blk t).view.read (Elt Ideal)
      (biasRelu (M := 100000) (N := 128) (V c main_v102) (V c main_v105)) := by
  show (cfg7.win 2).cut (grid7.coords t) ((dat7 V c).after 2 t) = _
  rw [after7_2]
  unfold out7_2
  rw [View.canon_unit_zero hz]
  simp only [View.ld_unit_zero (S := S5000x128) hz, View.ld_unit_zero (S := S1x128) hz]
  rw [Pay.bias7]
  obtain ⟨-, -, -, -, e20, e21⟩ := idx t
  funext j
  obtain ⟨p, q, rfl⟩ : ∃ (p : Fin 5000) (q : Fin 128), j = ix2 p q := ⟨j 0, j 1, eq_ix2 j⟩
  rw [View.read_apply]
  show biasRelu (M := 5000) (N := 128) (iblk7 V c 0 t) (iblk7 V c 1 t) (ix2 p q) = _
  rw [biasRelu_apply]
  unfold biasRelu
  rw [bias_apply V c t 0 q]
  rw [rows_apply V c t p q (((cfg7.win 2).blk t).view.emb (ix2 p q))
    (by show win7_2.index t 0 * 5000 + 1 * p.val = t.val * 5000 + p.val; rw [e20]; omega)
    (by show win7_2.index t 1 * 128 + 1 * q.val = q.val; rw [e21]; omega)]
  congr 3
  funext a
  apply Fin.ext
  match a with
  | ⟨0, _⟩ => rfl
  | ⟨1, _⟩ => show q.val = win7_2.index t 1 * 128 + 1 * q.val; rw [e21]; omega

/-- Every row of the output array lies in the block of the point `row / 5000`. -/
theorem cover (i : S100000x128.Idx) :
    ∃ t : Fin cfg7.N, (cfg7.win 2).flush t = true ∧ i ∈ ((cfg7.win 2).blk t).view.set := by
  have hi0 : (i 0).val < 100000 := (i 0).isLt
  have hi1 : (i 1).val < 128 := (i 1).isLt
  have hN : cfg7.N = 20 := N_7
  have ht : (i 0).val / 5000 < cfg7.N := by rw [hN]; omega
  obtain ⟨-, -, -, -, e20, e21⟩ := idx ⟨(i 0).val / 5000, ht⟩
  refine ⟨⟨(i 0).val / 5000, ht⟩, flush7_2 _, ?_⟩
  show i ∈ ((View.whole main_v106).slice (win7_2.rect ⟨(i 0).val / 5000, ht⟩)).set
  rw [View.set_slice_whole, Rect.mem_set_unit]
  intro a
  match a with
  | ⟨0, _⟩ =>
    show win7_2.index ⟨(i 0).val / 5000, ht⟩ 0 * 5000 ≤ (i 0).val ∧ (i 0).val < win7_2.index ⟨(i 0).val / 5000, ht⟩ 0 * 5000 + 5000
    rw [e20]; show (i 0).val / 5000 * 5000 ≤ (i 0).val ∧ (i 0).val < (i 0).val / 5000 * 5000 + 5000; omega
  | ⟨1, _⟩ =>
    show win7_2.index ⟨(i 0).val / 5000, ht⟩ 1 * 128 ≤ (i 1).val ∧ (i 1).val < win7_2.index ⟨(i 0).val / 5000, ht⟩ 1 * 128 + 128
    rw [e21]; omega

/-- THE REGION'S EXIT: the output array is the biased, clamped input array, both as the region found them. -/
theorem exit_eq (c : Dev nD) :
    (dat7 V c).arrAt 2 cfg7.N = biasRelu (M := 100000) (N := 128) (V c main_v102) (V c main_v105) :=
  (dat7 V c).arrAt_eq_of_cover 2 _ (fun t _ => flushed V c t) cover

end Cert.KernelIdeal.Region7

end
-- ==== Proof.StageL4.lean ====
/-
  Layer 4, boundary by boundary: each buffer the next step reads holds the reference's corresponding stage.

  The transform region's exit array is the matrix product of the layer's input with its weight matrix; the host
  stretch after it gathers the transformed rows at the edge sources, scales them by the edge weights and adds them
  up at the edge targets — the same operations, on the same index vectors and weights, as the reference's — and lays
  the layer's bias out as one row; the clamp region's exit array is the aggregate with the bias added, clamped at
  zero.
-/
import proofs.«143770_j20968030339470_1_alg».proof.Proof.StageL3
import proofs.«143770_j20968030339470_1_alg».proof.Proof.StagePre
import proofs.«143770_j20968030339470_1_alg».proof.Proof.ArgsPre
import proofs.«143770_j20968030339470_1_alg».proof.Proof.Keep
import proofs.«143770_j20968030339470_1_alg».proof.Proof.Region6
import proofs.«143770_j20968030339470_1_alg».proof.Proof.Region7
import proofs.«143770_j20968030339470_1_alg».proof.Proof.RefDense
import proofs.«143770_j20968030339470_1_alg».proof.Proof.Dense

set_option maxRecDepth 16384
set_option quotPrecheck false

noncomputable section

namespace Cert.KernelIdeal.StageL4

open Cert.KernelIdeal Cert.KernelIdeal.Gen Cert.ReferenceIdeal.ReadP Cert.Dense
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)

/-- The layer's weight matrix, sliced out of the stacked weights. -/
theorem weights : W15 m ρ c (Proc.devRef .tc main_v89) = val_main_v95 (F := Ideal) a1 := by
  have h1 := (Keep.to14 m ρ c main_arg1 (by decide)).trans (ArgsPre.w3_arg m ρ c main_arg1 (by decide))
  show StableHlo.after hostOps6 (W14 m ρ c) (Proc.devRef .tc main_v89) = _
  generalize W14 m ρ c = V at h1 ⊢
  after_results
  rw [h1]
  unfold val_main_v95 val_main_v94
  rfl

/-- The layer's input: the previous layer's output, untouched by the slicing. -/
theorem features : W15 m ρ c (Proc.devRef .tc main_v87) = val_main_v93 (F := Ideal) a0 a1 a2 a7 := by
  have h := StageL3.clamped m ρ c
  show StableHlo.after hostOps6 (W14 m ρ c) (Proc.devRef .tc main_v87) = _
  generalize W14 m ρ c = V at h ⊢
  after_results
  exact h

/-- The transformed features: the layer's input times its weight matrix. -/
theorem transformed : W16 m ρ c (Proc.devRef .tc main_v90) = val_main_v96 (F := Ideal) a0 a1 a2 a7 := by
  rw [Cert.ReferenceIdeal.Layers.layer4_transform]
  refine (W16_arr m ρ c 2).trans ((Region6.exit_eq (V15 m ρ) c).trans ?_)
  show mm (M := 100000) (K := 128) (N := 128) (W15 m ρ c (Proc.devRef .tc main_v87)) (W15 m ρ c (Proc.devRef .tc main_v89)) = _
  rw [features m ρ c, weights m ρ c]

set_option maxHeartbeats 2000000 in
/-- The aggregate: the transformed rows gathered at the sources, scaled by the edge weights, summed at the targets. -/
theorem aggregated : W17 m ρ c (Proc.devRef .tc main_v102) = val_main_v108 (F := Ideal) a0 a1 a2 a7 := by
  have hh := transformed m ρ c
  have h3 := (Keep.to16 m ρ c main_v3 (by decide)).trans (StagePre.w3_v3 m ρ c)
  have h6 := (Keep.to16 m ρ c main_v6 (by decide)).trans (StagePre.w3_v6 m ρ c)
  have h30 := (Keep.to16 m ρ c main_v30 (by decide)).trans (StagePre.w3_v30 m ρ c)
  show StableHlo.after hostOps7 (W16 m ρ c) (Proc.devRef .tc main_v102) = _
  generalize W16 m ρ c = V at hh h3 h6 h30 ⊢
  after_results_simp
  rw [hh, h3, h6, h30]
  unfold val_main_v108 val_main_v107 val_main_v106 val_main_cst_17 val_main_v105 val_main_v104 val_main_v103 val_main_v102 val_main_v101 val_main_v100 val_main_v99 val_main_c_16 val_main_v98 val_main_v97 val_main_c_15
  generalize val_main_v96 (F := Ideal) a0 a1 a2 a7 = yh
  generalize val_main_v3 (F := Ideal) a7 = y3
  generalize val_main_v6 (F := Ideal) a7 = y6
  generalize val_main_v30 (F := Ideal) a7 = y30
  rfl

/-- The layer's bias, laid out as one row. -/
theorem biasRow : W17 m ρ c (Proc.devRef .tc main_v105)
    = shapeCast ⟨2, ![1, 128]⟩ (val_main_v110 (F := Ideal) a2) Gen.shapeCasts_S128_S1x128 := by
  have h2 := (Keep.to16 m ρ c main_arg2 (by decide)).trans (ArgsPre.w3_arg m ρ c main_arg2 (by decide))
  show StableHlo.after hostOps7 (W16 m ρ c) (Proc.devRef .tc main_v105) = _
  generalize W16 m ρ c = V at h2 ⊢
  after_results_simp
  rw [h2]
  unfold val_main_v110 val_main_v109
  rfl

/-- The layer's output: the aggregate with the bias added to every row, clamped at zero. -/
theorem clamped : W18 m ρ c (Proc.devRef .tc main_v106) = val_main_v114 (F := Ideal) a0 a1 a2 a7 := by
  rw [Cert.ReferenceIdeal.Layers.layer4_clamp a0 a1 a2 a7 Gen.shapeCasts_S128_S1x128]
  refine (W18_arr m ρ c 2).trans ((Region7.exit_eq (V17 m ρ) c).trans ?_)
  show biasRelu (M := 100000) (N := 128) (W17 m ρ c (Proc.devRef .tc main_v102)) (W17 m ρ c (Proc.devRef .tc main_v105)) = _
  rw [aggregated m ρ c, biasRow m ρ c]

end Cert.KernelIdeal.StageL4

end
-- ==== Proof.Region8.lean ====
/-
  Region 8: the head, as one function of the arrays the region finds.

  The grid has one point; every window's block is its whole array. The point writes back, for every graph, its
  summed features divided by its node count (at least one), through the two affine maps with the clamp at zero
  between them. So after the point the output array is the head of the six input arrays as the region found them.
-/
import proofs.«143770_j20968030339470_1_alg».proof.Proof.Gen.KernelIdeal.Frame
import proofs.«143770_j20968030339470_1_alg».proof.Proof.PayDense

set_option maxRecDepth 16384

noncomputable section

namespace Cert.KernelIdeal.Region8

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: every window stays at block (0, 0). -/
theorem idx : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0 :=
  (by decide +kernel : ∀ t : Fin grid8.N, _)

/-- Window 0's one block is its whole array. -/
theorem whole0 (c : Dev nD) (t : Fin cfg8.N) :
    (iblk8 V c 0 t : Vec Ideal S2000x128 .f32) = (V c main_v109 : S2000x128.Idx → EReal) := by
  obtain ⟨e0, e1, -, -, -, -, -, -, -, -, -, -, -, -⟩ := idx t
  funext j
  unfold iblk8
  rw [View.read_apply]
  show V c main_v109 _ = V c main_v109 _
  congr 1
  funext a
  apply Fin.ext
  match a with
  | ⟨0, _⟩ => show win8_0.index t 0 * 2000 + 1 * (j 0).val = (j 0).val; rw [e0]; omega
  | ⟨1, _⟩ => show win8_0.index t 1 * 128 + 1 * (j 1).val = (j 1).val; rw [e1]; omega

/-- Window 1's one block is its whole array. -/
theorem whole1 (c : Dev nD) (t : Fin cfg8.N) :
    (iblk8 V c 1 t : Vec Ideal S2000x1 .f32) = (V c main_v114 : S2000x1.Idx → EReal) := by
  obtain ⟨-, -, e0, e1, -, -, -, -, -, -, -, -, -, -⟩ := idx t
  funext j
  unfold iblk8
  rw [View.read_apply]
  show V c main_v114 _ = V c main_v114 _
  congr 1
  funext a
  apply Fin.ext
  match a with
  | ⟨0, _⟩ => show win8_1.index t 0 * 2000 + 1 * (j 0).val = (j 0).val; rw [e0]; omega
  | ⟨1, _⟩ => show win8_1.index t 1 * 1 + 1 * (j 1).val = (j 1).val; rw [e1]; omega

/-- Window 2's one block is its whole array. -/
theorem whole2 (c : Dev nD) (t : Fin cfg8.N) :
    (iblk8 V c 2 t : Vec Ideal S128x256 .f32) = (V c main_arg3 : S128x256.Idx → EReal) := by
  obtain ⟨-, -, -, -, e0, e1, -, -, -, -, -, -, -, -⟩ := idx t
  funext j
  unfold iblk8
  rw [View.read_apply]
  show V c main_arg3 _ = V c main_arg3 _
  congr 1
  funext a
  apply Fin.ext
  match a with
  | ⟨0, _⟩ => show win8_2.index t 0 * 128 + 1 * (j 0).val = (j 0).val; rw [e0]; omega
  | ⟨1, _⟩ => show win8_2.index t 1 * 256 + 1 * (j 1).val = (j 1).val; rw [e1]; omega

/-- Window 3's one block is its whole array. -/
theorem whole3 (c : Dev nD) (t : Fin cfg8.N) :
    (iblk8 V c 3 t : Vec Ideal S1x256 .f32) = (V c main_v115 : S1x256.Idx → EReal) := by
  obtain ⟨-, -, -, -, -, -, e0, e1, -, -, -, -, -, -⟩ := idx t
  funext j
  unfold iblk8
  rw [View.read_apply]
  show V c main_v115 _ = V c main_v115 _
  congr 1
  funext a
  apply Fin.ext
  match a with
  | ⟨0, _⟩ => show win8_3.index t 0 * 1 + 1 * (j 0).val = (j 0).val; rw [e0]; omega
  | ⟨1, _⟩ => show win8_3.index t 1 * 256 + 1 * (j 1).val = (j 1).val; rw [e1]; omega

/-- Window 4's one block is its whole array. -/
theorem whole4 (c : Dev nD) (t : Fin cfg8.N) :
    (iblk8 V c 4 t : Vec Ideal S256x1 .f32) = (V c main_arg5 : S256x1.Idx → EReal) := by
  obtain ⟨-, -, -, -, -, -, -, -, e0, e1, -, -, -, -⟩ := idx t
  funext j
  unfold iblk8
  rw [View.read_apply]
  show V c main_arg5 _ = V c main_arg5 _
  congr 1
  funext a
  apply Fin.ext
  match a with
  | ⟨0, _⟩ => show win8_4.index t 0 * 256 + 1 * (j 0).val = (j 0).val; rw [e0]; omega
  | ⟨1, _⟩ => show win8_4.index t 1 * 1 + 1 * (j 1).val = (j 1).val; rw [e1]; omega

/-- Window 5's one block is its whole array. -/
theorem whole5 (c : Dev nD) (t : Fin cfg8.N) :
    (iblk8 V c 5 t : Vec Ideal S1x1 .f32) = (V c main_v116 : S1x1.Idx → EReal) := by
  obtain ⟨-, -, -, -, -, -, -, -, -, -, e0, e1, -, -⟩ := idx t
  funext j
  unfold iblk8
  rw [View.read_apply]
  show V c main_v116 _ = V c main_v116 _
  congr 1
  funext a
  apply Fin.ext
  match a with
  | ⟨0, _⟩ => show win8_5.index t 0 * 1 + 1 * (j 0).val = (j 0).val; rw [e0]; omega
  | ⟨1, _⟩ => show win8_5.index t 1 * 1 + 1 * (j 1).val = (j 1).val; rw [e1]; omega

set_option maxHeartbeats 1000000 in
/-- What the point writes back is the head of the six arrays, read through the output's one block. -/
theorem flushed (c : Dev nD) (t : Fin cfg8.N) :
    (dat8 V c).flushed 6 t = ((cfg8.win 6).blk t).view.read (Elt Ideal)
      (head (G := 2000) (D := 128) (H := 256) (O := 1) (V c main_v109) (V c main_v114) (V c main_arg3) (V c main_v115)
        (V c main_arg5) (V c main_v116)) := by
  show (cfg8.win 6).cut (grid8.coords t) ((dat8 V c).after 6 t) = _
  rw [after8_6]
  unfold out8_6
  rw [View.canon_unit_zero hz]
  simp only [View.ld_unit_zero (S := S2000x128) hz, View.ld_unit_zero (S := S2000x1) hz, View.ld_unit_zero (S := S128x256) hz,
    View.ld_unit_zero (S := S1x256) hz, View.ld_unit_zero (S := S256x1) hz, View.ld_unit_zero (S := S1x1) hz]
  rw [Pay.head8, whole0 V c t, whole1 V c t, whole2 V c t, whole3 V c t, whole4 V c t, whole5 V c t]
  obtain ⟨-, -, -, -, -, -, -, -, -, -, -, -, e0, e1⟩ := idx t
  generalize head (G := 2000) (D := 128) (H := 256) (O := 1) (V c main_v109) (V c main_v114) (V c main_arg3) (V c main_v115)
    (V c main_arg5) (V c main_v116) = H
  funext j
  obtain ⟨p, q, rfl⟩ : ∃ (p : Fin 2000) (q : Fin 1), j = ix2 p q := ⟨j 0, j 1, eq_ix2 j⟩
  rw [View.read_apply]
  have hemb : ((cfg8.win 6).blk t).view.emb (ix2 p q) = (ix2 p q : S2000x1.Idx) := by
    funext a
    apply Fin.ext
    match a with
    | ⟨0, _⟩ => show win8_6.index t 0 * 2000 + 1 * p.val = p.val; rw [e0]; omega
    | ⟨1, _⟩ => show win8_6.index t 1 * 1 + 1 * q.val = q.val; rw [e1]; omega
  show H (ix2 p q) = H (((cfg8.win 6).blk t).view.emb (ix2 p q))
  rw [hemb]

/-- The one point's block is the whole output array. -/
theorem cover (i : S2000x1.Idx) :
    ∃ t : Fin cfg8.N, (cfg8.win 6).flush t = true ∧ i ∈ ((cfg8.win 6).blk t).view.set := by
  have hi0 : (i 0).val < 2000 := (i 0).isLt
  have hi1 : (i 1).val < 1 := (i 1).isLt
  have hN : cfg8.N = 1 := N_8
  have ht : 0 < cfg8.N := by rw [hN]; omega
  obtain ⟨-, -, -, -, -, -, -, -, -, -, -, -, e0, e1⟩ := idx ⟨0, ht⟩
  refine ⟨⟨0, ht⟩, flush8_6 _, ?_⟩
  show i ∈ ((View.whole main_v117).slice (win8_6.rect ⟨0, ht⟩)).set
  rw [View.set_slice_whole, Rect.mem_set_unit]
  intro a
  match a with
  | ⟨0, _⟩ =>
    show win8_6.index ⟨0, ht⟩ 0 * 2000 ≤ (i 0).val ∧ (i 0).val < win8_6.index ⟨0, ht⟩ 0 * 2000 + 2000
    rw [e0]; omega
  | ⟨1, _⟩ =>
    show win8_6.index ⟨0, ht⟩ 1 * 1 ≤ (i 1).val ∧ (i 1).val < win8_6.index ⟨0, ht⟩ 1 * 1 + 1
    rw [e1]; omega

/-- THE REGION'S EXIT: the output array is the head of the six input arrays as the region found them. -/
theorem exit_eq (c : Dev nD) :
    (dat8 V c).arrAt 6 cfg8.N = head (G := 2000) (D := 128) (H := 256) (O := 1) (V c main_v109) (V c main_v114)
      (V c main_arg3) (V c main_v115) (V c main_arg5) (V c main_v116) :=
  (dat8 V c).arrAt_eq_of_cover 6 _ (fun t _ => flushed V c t) cover

end Cert.KernelIdeal.Region8

end
-- ==== Proof.StageHead.lean ====
/-
  The pooling stretch and the head: the kernel's result buffer holds the reference's last stage.

  After the last layer both programs add the node features up per graph and count each graph's nodes, by the same
  scatter-adds on the same graph assignment. The kernel lays the counts out as a column and the two head biases as
  rows and launches the head region, whose exit array is the head of those arrays; the reference's last operations
  are the same head. So the kernel's result buffer, at the last boundary, is the reference's result as a function of
  the argument arrays.
-/
import proofs.«143770_j20968030339470_1_alg».proof.Proof.StageL4
import proofs.«143770_j20968030339470_1_alg».proof.Proof.StagePre
import proofs.«143770_j20968030339470_1_alg».proof.Proof.ArgsPre
import proofs.«143770_j20968030339470_1_alg».proof.Proof.Keep
import proofs.«143770_j20968030339470_1_alg».proof.Proof.Region8
import proofs.«143770_j20968030339470_1_alg».proof.Proof.RefDense
import proofs.«143770_j20968030339470_1_alg».proof.Proof.Dense

set_option maxRecDepth 16384
set_option quotPrecheck false

noncomputable section

namespace Cert.KernelIdeal.StageHead

open Cert.KernelIdeal Cert.KernelIdeal.Gen Cert.ReferenceIdeal.ReadP Cert.Dense
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)

/-- The last layer's output holds at the pooling stretch's entry; the graph assignment too. -/
theorem w18_arg8 : W18 m ρ c (Proc.devRef .tc main_arg8) = a8 :=
  (Keep.to18 m ρ c main_arg8 (by decide)).trans (ArgsPre.w3_arg m ρ c main_arg8 (by decide))

/-- The per-graph sums of the node features. -/
theorem sums : W19 m ρ c (Proc.devRef .tc main_v109) = val_main_v117 (F := Ideal) a0 a1 a2 a7 a8 := by
  have hh := StageL4.clamped m ρ c
  have h8 := w18_arg8 m ρ c
  show StableHlo.after hostOps8 (W18 m ρ c) (Proc.devRef .tc main_v109) = _
  generalize W18 m ρ c = V at hh h8 ⊢
  after_results_simp
  rw [hh, h8]
  unfold val_main_v117 val_main_v116 val_main_v115 val_main_cst_18
  generalize val_main_v114 (F := Ideal) a0 a1 a2 a7 = yh
  rfl

/-- The per-graph node counts, as a column. -/
theorem counts : W19 m ρ c (Proc.devRef .tc main_v114)
    = shapeCast ⟨2, ![2000, 1]⟩ (val_main_v121 (F := Ideal) a8) Gen.shapeCasts_S2000_S2000x1 := by
  have h8 := w18_arg8 m ρ c
  show StableHlo.after hostOps8 (W18 m ρ c) (Proc.devRef .tc main_v114) = _
  generalize W18 m ρ c = V at h8 ⊢
  after_results_simp
  rw [h8]
  unfold val_main_v121 val_main_v120 val_main_v119 val_main_cst_20 val_main_v118 val_main_cst_19
  rfl

/-- The first head bias, as a row. -/
theorem bias1 : W19 m ρ c (Proc.devRef .tc main_v115) = shapeCast ⟨2, ![1, 256]⟩ a4 Gen.shapeCasts_S256_S1x256 := by
  have h4 := (Keep.to18 m ρ c main_arg4 (by decide)).trans (ArgsPre.w3_arg m ρ c main_arg4 (by decide))
  show StableHlo.after hostOps8 (W18 m ρ c) (Proc.devRef .tc main_v115) = _
  generalize W18 m ρ c = V at h4 ⊢
  after_results
  rw [h4]
  rfl

/-- The second head bias, as a row. -/
theorem bias2 : W19 m ρ c (Proc.devRef .tc main_v116) = shapeCast ⟨2, ![1, 1]⟩ a6 Gen.shapeCasts_S1_S1x1 := by
  have h6 := (Keep.to18 m ρ c main_arg6 (by decide)).trans (ArgsPre.w3_arg m ρ c main_arg6 (by decide))
  show StableHlo.after hostOps8 (W18 m ρ c) (Proc.devRef .tc main_v116) = _
  generalize W18 m ρ c = V at h6 ⊢
  after_results
  rw [h6]
  rfl

theorem w19_arg3 : W19 m ρ c (Proc.devRef .tc main_arg3) = a3 :=
  (Keep.to19 m ρ c main_arg3 (by decide)).trans (ArgsPre.w3_arg m ρ c main_arg3 (by decide))

theorem w19_arg5 : W19 m ρ c (Proc.devRef .tc main_arg5) = a5 :=
  (Keep.to19 m ρ c main_arg5 (by decide)).trans (ArgsPre.w3_arg m ρ c main_arg5 (by decide))

/-- THE KERNEL'S RESULT at the last boundary is the reference's result as a function of the argument arrays. -/
theorem result : W20 m ρ c (Proc.devRef .tc main_v117) = val_main_v135 (F := Ideal) a0 a1 a2 a3 a4 a5 a6 a7 a8 := by
  rw [Cert.ReferenceIdeal.Layers.head_eq a0 a1 a2 a7 a3 a4 a5 a6 a8 Gen.shapeCasts_S2000_S2000x1 Gen.shapeCasts_S256_S1x256
    Gen.shapeCasts_S1_S1x1]
  refine (W20_arr m ρ c 6).trans ((Region8.exit_eq (V19 m ρ) c).trans ?_)
  show head (G := 2000) (D := 128) (H := 256) (O := 1) (W19 m ρ c (Proc.devRef .tc main_v109)) (W19 m ρ c (Proc.devRef .tc main_v114))
    (W19 m ρ c (Proc.devRef .tc main_arg3)) (W19 m ρ c (Proc.devRef .tc main_v115)) (W19 m ρ c (Proc.devRef .tc main_arg5))
    (W19 m ρ c (Proc.devRef .tc main_v116)) = _
  rw [sums m ρ c, counts m ρ c, w19_arg3 m ρ c, bias1 m ρ c, w19_arg5 m ρ c, bias2 m ρ c]

end Cert.KernelIdeal.StageHead

end
-- ==== Proof.lean ====
/-
  The certificate of a graph convolution network's kernel program against its plain reference, on the extended reals.

  The kernel program runs nine kernels among stretches of host operations: per layer a tiled matrix product (its
  casts to a narrower float format are the identity on the extended reals) and a bias-and-clamp pass, and at the end
  one head kernel; the message passing between them — gathers at the edge sources, scatter-adds at the edge targets —
  is host code, the same operations as the reference's. The three frames are the generated runs. The kernel's
  idealization rewrote nothing, so it preserves the kernel trivially. For the values: the kernel's result buffer at
  the last segment boundary is, stage by stage, the reference's own staged value — every tiled product is the whole
  matrix product because the row blocks tile the array, every shared host stretch is carried as the same function of
  equal inputs — and the reference's run ends at that value.
-/
import proofs.«143770_j20968030339470_1_alg».proof.Defs
import proofs.«143770_j20968030339470_1_alg».proof.Proof.Gen.Kernel
import proofs.«143770_j20968030339470_1_alg».proof.Proof.Gen.Kernel.Skeleton
import proofs.«143770_j20968030339470_1_alg».proof.Proof.Gen.Kernel.Launch
import proofs.«143770_j20968030339470_1_alg».proof.Proof.Gen.Kernel.Points
import proofs.«143770_j20968030339470_1_alg».proof.Proof.Gen.Kernel.Frame
import proofs.«143770_j20968030339470_1_alg».proof.Proof.Gen.KernelIdeal
import proofs.«143770_j20968030339470_1_alg».proof.Proof.Gen.KernelIdeal.Skeleton
import proofs.«143770_j20968030339470_1_alg».proof.Proof.Gen.KernelIdeal.Launch
import proofs.«143770_j20968030339470_1_alg».proof.Proof.Gen.KernelIdeal.Points
import proofs.«143770_j20968030339470_1_alg».proof.Proof.Gen.KernelIdeal.Frame
import proofs.«143770_j20968030339470_1_alg».proof.Proof.Gen.ReferenceIdeal
import proofs.«143770_j20968030339470_1_alg».proof.Proof.RefRun
import proofs.«143770_j20968030339470_1_alg».proof.Proof.RefRead
import proofs.«143770_j20968030339470_1_alg».proof.Proof.Gen.Pre_finite_inputs
import proofs.«143770_j20968030339470_1_alg».proof.Proof.KernelRun
import proofs.«143770_j20968030339470_1_alg».proof.Proof.StageHead
import Idealize.ShloMosaic.Adequacy
import Idealize.ShloMosaic.Init

noncomputable section

namespace Cert.Proof

open Idealize.ShloMosaic Idealize.SL.Sem

/-- The word-level kernel program runs and leaves its arguments as launched: the generated frame. -/
theorem frame_k : Cert.frame_Kernel := fun m ρ _ => Cert.Kernel.Gen.frame m ρ

/-- The idealized kernel program runs and leaves its arguments as launched: the generated frame. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs run and end with the same result: the kernel's result
    buffer at its last boundary is the reference's last stage of the kernel's arguments, and the reference's run ends
    at that stage of its own arguments, which are the same arrays. -/
theorem algebraic : Cert.algebraic_KernelIdeal_ReferenceIdeal := by
  intro m ρ m' ρ' _ hagree
  refine ⟨fun c => Cert.KernelIdeal.Gen.W20 m ρ c (Proc.devRef .tc Cert.KernelIdeal.main_v117),
    Cert.KernelIdeal.KRun.run_named m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v135_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (Cert.KernelIdeal.StageHead.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
